-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x256 : Shape := ⟨3, ![4, 4096, 256]⟩
abbrev S4096x4096 : Shape := ⟨2, ![4096, 4096]⟩
abbrev S_ : Shape := ⟨0, ![]⟩

class Facts : Prop where
  bcast_S_S4x4096x256 : S_.BroadcastsInDim S4x4096x256 (![] : Fin 0 → Fin S4x4096x256.rank)
  reducesTo_S4x4096x256_S_d0_1_2 : S4x4096x256.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x4096x256 .f32) (main_arg1 : FVec F S4096x4096 .f32) : IVec S_ 1 :=
  let main_v0 : FVec F S4x4096x256 .f32 := Host.absf main_arg0
  let main_cst : FVec F S_ .f32 := constant S_ .f32 0x7F800000#32
  let main_v1 : FVec F S4x4096x256 .f32 := broadcastInDim S4x4096x256 ![] bcast_S_S4x4096x256 main_cst
  let main_v2 : IVec S4x4096x256 1 := cmpf .olt main_v0 main_v1
  let main_c : IVec S_ 1 := constantI S_ 1 1#1
  let main_v3 : IVec S_ 1 := (fun x v => Host.reduce IntOp.andi x v reducesTo_S4x4096x256_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x4096x256 : Shape := ⟨3, ![4, 4096, 256]⟩
abbrev S4096x4096 : Shape := ⟨2, ![4096, 4096]⟩
abbrev S512x2048 : Shape := ⟨2, ![512, 2048]⟩
abbrev S4x2048x256 : Shape := ⟨3, ![4, 2048, 256]⟩
abbrev S4x512x256 : Shape := ⟨3, ![4, 512, 256]⟩
abbrev S1x2048x256 : Shape := ⟨3, ![1, 2048, 256]⟩
abbrev S2048x256 : Shape := ⟨2, ![2048, 256]⟩
abbrev S512x256 : Shape := ⟨2, ![512, 256]⟩
abbrev S1x512x256 : Shape := ⟨3, ![1, 512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4x4096x256, .f32⟩
  | .hbm, ⟨1, _⟩ => ⟨S4096x4096, .f32⟩
  | .hbm, ⟨2, _⟩ => ⟨S4x4096x256, .f32⟩
  | .local _ .vmem, ⟨0, _⟩ => ⟨S512x2048, .f32⟩
  | .local _ .vmem, ⟨1, _⟩ => ⟨S512x2048, .f32⟩
  | .local _ .vmem, ⟨2, _⟩ => ⟨S4x2048x256, .f32⟩
  | .local _ .vmem, ⟨3, _⟩ => ⟨S4x2048x256, .f32⟩
  | .local _ .vmem, ⟨4, _⟩ => ⟨S4x512x256, .f32⟩
  | .local _ .vmem, ⟨5, _⟩ => ⟨S4x512x256, .f32⟩
  | .local _ .vmem, ⟨6, _⟩ => ⟨S4x2048x256, .f32⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c1_i32 : BitVec 32 := 1#32
  let v8 : BitVec 1 := Scalar.cmpi .eq arg1 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 1 := Scalar.cmpi .eq arg1 c0_i32_0
  let v2 : BitVec 1 := Scalar.andi v0 v1
  let c0_i32_1 : BitVec 32 := 0#32
  let c1_i32 : BitVec 32 := 1#32
  let v3 : BitVec 32 := Scalar.select v2 c0_i32_1 c1_i32
  let c0_i32_2 : BitVec 32 := 0#32
  let c0_i32_3 : BitVec 32 := 0#32
  let c0_i32_4 : BitVec 32 := 0#32
  ![c0_i32_2.toNat, v3.toNat, c0_i32_3.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S4x2048x256_S4x2048x256_0_0_0 : ∀ a, (![0, 0, 0] : Fin 3 → Nat) a + S4x2048x256.size a ≤ S4x2048x256.size a
  h_S4x2048x256 : 0 < S4x2048x256.numel
  shapeCasts_S4x2048x256_S4x2048x256 : S4x2048x256.ShapeCasts S4x2048x256
  inb_S512x2048_S512x2048_0_0 : ∀ a, (![0, 0] : Fin 2 → Nat) a + S512x2048.size a ≤ S512x2048.size a
  h_S512x2048 : 0 < S512x2048.numel
  inb_S4x2048x256_S1x2048x256_0_0_0 : ∀ a, (![0, 0, 0] : Fin 3 → Nat) a + S1x2048x256.size a ≤ S4x2048x256.size a
  h_S1x2048x256 : 0 < S1x2048x256.numel
  shapeCasts_S1x2048x256_S2048x256 : S1x2048x256.ShapeCasts S2048x256
  inb_S4x512x256_S1x512x256_0_0_0 : ∀ a, (![0, 0, 0] : Fin 3 → Nat) a + S1x512x256.size a ≤ S4x512x256.size a
  h_S1x512x256 : 0 < S1x512x256.numel
  shapeCasts_S1x512x256_S512x256 : S1x512x256.ShapeCasts S512x256
  shapeCasts_S512x256_S1x512x256 : S512x256.ShapeCasts S1x512x256
  inb_S4x2048x256_S1x2048x256_1_0_0 : ∀ a, (![1, 0, 0] : Fin 3 → Nat) a + S1x2048x256.size a ≤ S4x2048x256.size a
  inb_S4x512x256_S1x512x256_1_0_0 : ∀ a, (![1, 0, 0] : Fin 3 → Nat) a + S1x512x256.size a ≤ S4x512x256.size a
  inb_S4x2048x256_S1x2048x256_2_0_0 : ∀ a, (![2, 0, 0] : Fin 3 → Nat) a + S1x2048x256.size a ≤ S4x2048x256.size a
  inb_S4x512x256_S1x512x256_2_0_0 : ∀ a, (![2, 0, 0] : Fin 3 → Nat) a + S1x512x256.size a ≤ S4x512x256.size a
  inb_S4x2048x256_S1x2048x256_3_0_0 : ∀ a, (![3, 0, 0] : Fin 3 → Nat) a + S1x2048x256.size a ≤ S4x2048x256.size a
  inb_S4x512x256_S1x512x256_3_0_0 : ∀ a, (![3, 0, 0] : Fin 3 → Nat) a + S1x512x256.size a ≤ S4x512x256.size a
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x4096.size a
  hwx0_0 : ∀ i : grid0.Coords, EltTy.bits .f32 = 32 ∨ (Rect.block (s := S4096x4096) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x2048x256.size a ≤ S4x4096x256.size a
  hwx0_1 : ∀ i : grid0.Coords, EltTy.bits .f32 = 32 ∨ (Rect.block (s := S4x4096x256) S4x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512x256.size a ≤ S4x4096x256.size a
  hwx0_2 : ∀ i : grid0.Coords, EltTy.bits .f32 = 32 ∨ (Rect.block (s := S4x4096x256) S4x512x256.size (cc0_transform_2 i) (hinb0_2 i)).WholeWords (EltTy.packing .f32)

variable [Facts₀]

def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x512x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) && !(k0_cond3 i == 1#1) | ⟨_ + 3, h⟩ => absurd h (Nat.not_lt.2 (Nat.le_add_left _ _))

class Facts : Prop extends Facts₀ where

variable [Facts]
-- ==== ReferenceIdeal.lean ====
abbrev S4x4096x256 : Shape := ⟨3, ![4, 4096, 256]⟩
abbrev S4096x4096 : Shape := ⟨2, ![4096, 4096]⟩
abbrev S1x4096x256 : Shape := ⟨3, ![1, 4096, 256]⟩
abbrev S4096x256 : Shape := ⟨2, ![4096, 256]⟩

abbrev nBuf : Space → Nat
  | .hbm => 19
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S4096x4096, .f32⟩
  | .hbm, ⟨2, _⟩ => ⟨S1x4096x256, .f32⟩
  | .hbm, ⟨3, _⟩ => ⟨S4096x256, .f32⟩
  | .hbm, ⟨4, _⟩ => ⟨S4096x256, .f32⟩
  | .hbm, ⟨5, _⟩ => ⟨S1x4096x256, .f32⟩
  | .hbm, ⟨6, _⟩ => ⟨S4096x256, .f32⟩
  | .hbm, ⟨7, _⟩ => ⟨S4096x256, .f32⟩
  | .hbm, ⟨8, _⟩ => ⟨S1x4096x256, .f32⟩
  | .hbm, ⟨9, _⟩ => ⟨S4096x256, .f32⟩
  | .hbm, ⟨10, _⟩ => ⟨S4096x256, .f32⟩
  | .hbm, ⟨11, _⟩ => ⟨S1x4096x256, .f32⟩
  | .hbm, ⟨12, _⟩ => ⟨S4096x256, .f32⟩
  | .hbm, ⟨13, _⟩ => ⟨S4096x256, .f32⟩
  | .hbm, ⟨14, _⟩ => ⟨S1x4096x256, .f32⟩
  | .hbm, ⟨15, _⟩ => ⟨S1x4096x256, .f32⟩
  | .hbm, ⟨16, _⟩ => ⟨S1x4096x256, .f32⟩
  | .hbm, ⟨17, _⟩ => ⟨S1x4096x256, .f32⟩
  | .hbm, ⟨18, _⟩ => ⟨S4x4096x256, .f32⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]

class Facts₀ : Prop where
  slices_S4x4096x256_S1x4096x256_0_0_0 : S4x4096x256.Slices ![0, 0, 0] S1x4096x256
  shapeCasts_S1x4096x256_S4096x256 : S1x4096x256.ShapeCasts S4096x256
  slices_S4x4096x256_S1x4096x256_1_0_0 : S4x4096x256.Slices ![1, 0, 0] S1x4096x256
  slices_S4x4096x256_S1x4096x256_2_0_0 : S4x4096x256.Slices ![2, 0, 0] S1x4096x256
  slices_S4x4096x256_S1x4096x256_3_0_0 : S4x4096x256.Slices ![3, 0, 0] S1x4096x256
  bcast_S4096x256_S1x4096x256_1_2 : S4096x256.BroadcastsInDim S1x4096x256 (![1, 2] : Fin 2 → Fin S1x4096x256.rank)
  concatenates_S1x4096x256_S1x4096x256_S1x4096x256_S1x4096x256_S4x4096x256_d0 : Shape.Concatenates [S1x4096x256, S1x4096x256, S1x4096x256, S1x4096x256] S4x4096x256 0
  dot_S4096x4096_S4096x256_S4096x256_1_0_0_1_n_n_wf : DotDims.WF S4096x4096 S4096x256 S4096x256 [1] [0] [0] [1] [] []

variable [Facts₀]

def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf

class Facts : Prop extends Facts₀ where

variable [Facts]
-- ==== Proof.Kernel.Cases.lean ====
/-
  What the three runs of the projection kernel's body share. The grid is 8 row blocks by 2 column halves, 16 points
  in row-major order, point `t` being row block `t / 2` and half `t % 2`. The body has three conditionals on the
  coordinates: the first (copy the staged half of `x` into the scratch) holds at point 0 only, the second (store the
  first-half products) at the even points, the third (add the second-half products) at the odd points. So three cases
  occur: point 0 (copy, then first half), the other even points (first half, from the scratch), the odd points (second
  half, added to what the even point before left). The output window is stored into at every point, and is written back
  after the odd points only.
-/
import proofs.«143561_g21036749816194_cont_8to1_1761_21_alg».proof.Proof.Gen.Kernel.Frame
import proofs.«143561_g21036749816194_cont_8to1_1761_21_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions, decided over the grid -/

/-- "row block 0 and half 0", as the body computes it. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem isFirst_iff : ∀ t : Fin cfg0.N, isFirst (grid0.coords t) ↔ t.val % 16 = 0 :=
  (by decide +kernel : ∀ t : Fin grid0.N, isFirst (grid0.coords t) ↔ t.val % 16 = 0)

/-- "half 0", as the body computes it. -/
abbrev isHalf0 (i : grid0.Coords) : Prop := k0_cond2 i = 1#1
/-- It holds at the even points. -/
theorem isHalf0_iff : ∀ t : Fin cfg0.N, isHalf0 (grid0.coords t) ↔ t.val % 2 = 0 :=
  (by decide +kernel : ∀ t : Fin grid0.N, isHalf0 (grid0.coords t) ↔ t.val % 2 = 0)

/-- "half 1", as the body computes it. -/
abbrev isHalf1 (i : grid0.Coords) : Prop := k0_cond3 i = 1#1
/-- It holds at the odd points. -/
theorem isHalf1_iff : ∀ t : Fin cfg0.N, isHalf1 (grid0.coords t) ↔ t.val % 2 = 1 :=
  (by decide +kernel : ∀ t : Fin grid0.N, isHalf1 (grid0.coords t) ↔ t.val % 2 = 1)

/-! ## No window is ever idle -/

theorem live0 : ∀ t : Fin cfg0.N, cfg0.idle 0 (grid0.coords t) = false := by decide +kernel
theorem live1 : ∀ t : Fin cfg0.N, cfg0.idle 1 (grid0.coords t) = false := by decide +kernel
/-- The output window is stored into at every point: each point is of half 0 or of half 1. -/
theorem live2 : ∀ t : Fin cfg0.N, cfg0.idle 2 (grid0.coords t) = false := by decide +kernel

/-! ## The memrefs the body is called with -/

abbrev mP (t : Fin cfg0.N) : Memref sig .tc .vmem S512x2048 .f32 := win0_0.stage (cfg0.slots t 0)
abbrev hP (t : Fin cfg0.N) : (mP t).IsWhole := hstage0_0 ((cfg0.slots t 0).cast nbuf0_0)
abbrev mX (t : Fin cfg0.N) : Memref sig .tc .vmem S4x2048x256 .f32 := win0_1.stage (cfg0.slots t 1)
abbrev hX (t : Fin cfg0.N) : (mX t).IsWhole := hstage0_1 ((cfg0.slots t 1).cast nbuf0_1)
abbrev mO (t : Fin cfg0.N) : Memref sig .tc .vmem S4x512x256 .f32 := win0_2.stage (cfg0.slots t 2)
abbrev hO (t : Fin cfg0.N) : (mO t).IsWhole := hstage0_2 ((cfg0.slots t 2).cast nbuf0_2)
/-- The scratch that keeps the first half of `x`: a whole scoped buffer of the kernel's own. -/
abbrev mS : Memref sig .tc .vmem S4x2048x256 .f32 := Memref.whole cc0_scratch0

/-- The class invariant with the scratch as a memref owned at some contents. -/
theorem PhiA_eq (c : Dev nD) :
    (Pipeline.ΦA spec0 c : sProp 𝕄)
      = iprop(iprop((∃ d, owns (c : Thread nD τ) mS fullShare d)) ∗ (∃ r, prngReg c r)) := by
  unfold Pipeline.ΦA; rw [scopedRest0_eq]; simp only [mS, owns_whole]; try rfl

end Cert.Kernel.Body

end
-- ==== Proof.Kernel.RunA.lean ====
/-
  The body's run at point 0: the staged half of `x` is copied into the scratch, and each of the four slabs of the
  output block is stored with the product of the staged block of `p` and the scratch's slab. The stores each buffer
  ends with are found by running the body; they are the witness of the statement.
-/
import proofs.«143561_g21036749816194_cont_8to1_1761_21_alg».proof.Proof.Kernel.Cases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At point 0 (all of the first two conditions hold, the third fails), on whole memrefs — the two inputs at their
    contents, the output block and the scratch at anything — the body runs to a continuation that holds the inputs as
    they were, the output block with its stores `L2` written and the scratch with its stores `LS` written. -/
noncomputable def runFirst (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec F S512x2048 .f32) (x1 : Vec F S4x2048x256 .f32) :
    Σ' (L2 : List (View.Piece (Elt F) S4x512x256 .f32)), { LS : List (View.Piece (Elt F) S4x2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__proj_body i arg2 harg2 arg3 harg3 arg4 harg4 arg5 harg5) K } := by
  refine ⟨?_, ?_, fun E K => ?run⟩
  case run =>
    simp only [cc0__proj_body_eq_skeleton]; unfold cc0__proj_body_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Body

end
-- ==== Proof.Kernel.RunC.lean ====
/-
  The body's run at an even point other than 0: nothing is copied; each of the four slabs of the output block is
  stored with the product of the staged block of `p` and the scratch's slab, the scratch holding what point 0 put
  there. The stores the output block ends with are found by running the body.
-/
import proofs.«143561_g21036749816194_cont_8to1_1761_21_alg».proof.Proof.Kernel.RunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At an even point other than 0 (only the second condition holds), on whole memrefs — the two inputs and the scratch
    at their contents, the output block at anything — the body runs to a continuation that holds the inputs and the
    scratch as they were and the output block with its stores `L2` written. -/
noncomputable def runEven (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : isHalf0 i) (hc2 : ¬isHalf1 i)
    (x0 : Vec F S512x2048 .f32) (x1 : Vec F S4x2048x256 .f32) (xs : Vec F S4x2048x256 .f32) :
    { L2 : List (View.Piece (Elt F) S4x512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs) -∗ K ⟨⟩))
          ⊢ wp frame (wpE (defs₀ (F := F)) Variants.none c none) E (cc0__proj_body i arg2 harg2 arg3 harg3 arg4 harg4 arg5 harg5) K } := by
  refine ⟨?_, fun E K => ?run⟩
  case run =>
    simp only [cc0__proj_body_eq_skeleton]; unfold cc0__proj_body_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

end Cert.Kernel.Body

end
-- ==== Proof.Kernel.RunB.lean ====
/-
  The body's run at an odd point: each of the four slabs of the output block is loaded, the product of the staged
  block of `p` and the staged slab of the second half of `x` is added to it, and the sum is stored back. The output
  block holds what the even point before left. The stores it ends with are found by running the body.
-/
import proofs.«143561_g21036749816194_cont_8to1_1761_21_alg».proof.Proof.Kernel.RunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At an odd point (only the third condition holds), on whole memrefs — the two inputs, the output block and the
    scratch at their contents — the body runs to a continuation that holds the inputs and the scratch as they were and
    the output block with its stores `L2` written. -/
noncomputable def runOdd (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : ¬isHalf0 i) (hc2 : isHalf1 i)
    (x0 : Vec F S512x2048 .f32) (x1 : Vec F S4x2048x256 .f32) (xo : Vec F S4x512x256 .f32) (xs : Vec F S4x2048x256 .f32) :
    { L2 : List (View.Piece (Elt F) S4x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs) -∗ K ⟨⟩))
          ⊢ wp frame (wpE (defs₀ (F := F)) Variants.none c none) E (cc0__proj_body i arg2 harg2 arg3 harg3 arg4 harg4 arg5 harg5) K } := by
  refine ⟨?_, fun E K => ?run⟩
  case run =>
    simp only [cc0__proj_body_eq_skeleton]; unfold cc0__proj_body_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

end Cert.Kernel.Body

end
-- ==== Proof.Kernel.Body.lean ====
/-
  The proof data of the projection kernel's pipeline and its body obligation, at any float instance.
  After the body at point 0 the scratch holds the staged half of `x` (whatever the one store left), and it is carried
  unchanged through every later point. After an even point the output block holds that point's four stores; after an
  odd point the four stores of the sums, computed over what the even point before left — the block is not written back
  between the two (it is written back after the odd points only) and the window is never idle. From these the frame
  run: every execution terminates, and the two argument arrays end as they began.
-/
import proofs.«143561_g21036749816194_cont_8to1_1761_21_alg».proof.Proof.Kernel.RunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover the buffer they go to -/

theorem coverFirstO (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec F S512x2048 .f32) (x1 : Vec F S4x2048x256 .f32) (y : S4x512x256.Idx) :
    ∃ pc ∈ (runFirst c i arg2 harg2 arg3 harg3 arg4 harg4 arg5 harg5 hc0 hc1 hc2 x0 x1).1, y ∈ pc.1.set :=
  View.cover_of_tiledL (runFirst c i arg2 harg2 arg3 harg3 arg4 harg4 arg5 harg5 hc0 hc1 hc2 x0 x1).1 S1x512x256.size (by sl_kernel_rfl) y

theorem coverFirstS (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec F S512x2048 .f32) (x1 : Vec F S4x2048x256 .f32) (y : S4x2048x256.Idx) :
    ∃ pc ∈ (runFirst c i arg2 harg2 arg3 harg3 arg4 harg4 arg5 harg5 hc0 hc1 hc2 x0 x1).2.1, y ∈ pc.1.set :=
  View.cover_of_tiledL (runFirst c i arg2 harg2 arg3 harg3 arg4 harg4 arg5 harg5 hc0 hc1 hc2 x0 x1).2.1 S4x2048x256.size (by sl_kernel_rfl) y

theorem coverEven (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : isHalf0 i) (hc2 : ¬isHalf1 i)
    (x0 : Vec F S512x2048 .f32) (x1 : Vec F S4x2048x256 .f32) (xs : Vec F S4x2048x256 .f32) (y : S4x512x256.Idx) :
    ∃ pc ∈ (runEven c i arg2 harg2 arg3 harg3 arg4 harg4 arg5 harg5 hc0 hc1 hc2 x0 x1 xs).1, y ∈ pc.1.set :=
  View.cover_of_tiledL (runEven c i arg2 harg2 arg3 harg3 arg4 harg4 arg5 harg5 hc0 hc1 hc2 x0 x1 xs).1 S1x512x256.size (by sl_kernel_rfl) y

theorem coverOdd (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : ¬isHalf0 i) (hc2 : isHalf1 i)
    (x0 : Vec F S512x2048 .f32) (x1 : Vec F S4x2048x256 .f32) (xo : Vec F S4x512x256 .f32) (xs : Vec F S4x2048x256 .f32) (y : S4x512x256.Idx) :
    ∃ pc ∈ (runOdd c i arg2 harg2 arg3 harg3 arg4 harg4 arg5 harg5 hc0 hc1 hc2 x0 x1 xo xs).1, y ∈ pc.1.set :=
  View.cover_of_tiledL (runOdd c i arg2 harg2 arg3 harg3 arg4 harg4 arg5 harg5 hc0 hc1 hc2 x0 x1 xo xs).1 S1x512x256.size (by sl_kernel_rfl) y

/-! ## What each case leaves: the contents its stores determine -/

/-- The output block after point 0. -/
def outFirst (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec F S512x2048 .f32) (x1 : Vec F S4x2048x256 .f32) : Vec F S4x512x256 .f32 :=
  View.canon (runFirst c i arg2 harg2 arg3 harg3 arg4 harg4 arg5 harg5 hc0 hc1 hc2 x0 x1).1

/-- The scratch after point 0. -/
def scrFirst (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec F S512x2048 .f32) (x1 : Vec F S4x2048x256 .f32) : Vec F S4x2048x256 .f32 :=
  View.canon (runFirst c i arg2 harg2 arg3 harg3 arg4 harg4 arg5 harg5 hc0 hc1 hc2 x0 x1).2.1

/-- The output block after an even point other than 0, the scratch holding `xs`. -/
def outEven (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : isHalf0 i) (hc2 : ¬isHalf1 i)
    (x0 : Vec F S512x2048 .f32) (x1 : Vec F S4x2048x256 .f32) (xs : Vec F S4x2048x256 .f32) : Vec F S4x512x256 .f32 :=
  View.canon (runEven c i arg2 harg2 arg3 harg3 arg4 harg4 arg5 harg5 hc0 hc1 hc2 x0 x1 xs).1

/-- The output block after an odd point that found `xo` in it. -/
def outOdd (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : ¬isHalf0 i) (hc2 : isHalf1 i)
    (x0 : Vec F S512x2048 .f32) (x1 : Vec F S4x2048x256 .f32) (xo : Vec F S4x512x256 .f32) (xs : Vec F S4x2048x256 .f32) : Vec F S4x512x256 .f32 :=
  View.canon (runOdd c i arg2 harg2 arg3 harg3 arg4 harg4 arg5 harg5 hc0 hc1 hc2 x0 x1 xo xs).1

/-! ## Point by point -/

theorem N_pos : 0 < cfg0.N := by rw [show cfg0.N = 16 from N_0]; decide
/-- Point 0. -/
abbrev p0 : Fin cfg0.N := ⟨0, N_pos⟩

theorem first_p0 : isFirst (grid0.coords p0) := (isFirst_iff p0).mpr (Nat.zero_mod _)
theorem half0_p0 : isHalf0 (grid0.coords p0) := (isHalf0_iff p0).mpr (Nat.zero_mod _)
theorem not_half1_p0 : ¬isHalf1 (grid0.coords p0) := fun h => absurd ((isHalf1_iff p0).mp h) (by decide)

theorem not_first_of_pos (t : Fin cfg0.N) (h : t.val ≠ 0) : ¬isFirst (grid0.coords t) := fun hf => by
  have h' := (isFirst_iff t).mp hf
  have hN : t.val < 16 := lt_of_lt_of_eq t.isLt (show cfg0.N = 16 from N_0)
  omega
theorem half0_of_even (t : Fin cfg0.N) (h : t.val % 2 = 0) : isHalf0 (grid0.coords t) := (isHalf0_iff t).mpr h
theorem not_half1_of_even (t : Fin cfg0.N) (h : t.val % 2 = 0) : ¬isHalf1 (grid0.coords t) := fun hf => by
  have h' := (isHalf1_iff t).mp hf; omega
theorem not_half0_of_odd (t : Fin cfg0.N) (h : ¬t.val % 2 = 0) : ¬isHalf0 (grid0.coords t) := fun hf => h ((isHalf0_iff t).mp hf)
theorem half1_of_odd (t : Fin cfg0.N) (h : ¬t.val % 2 = 0) : isHalf1 (grid0.coords t) := (isHalf1_iff t).mpr (by omega)

/-- What the scratch holds from point 0 on: what point 0's copy left. -/
def scr0 (c : Dev nD) : Vec F S4x2048x256 .f32 :=
  scrFirst c (grid0.coords p0) (mP p0) (hP p0) (mX p0) (hX p0) (mO p0) (hO p0) mS (Memref.isWhole_whole _) first_p0 half0_p0 not_half1_p0 (iblk m c 0 p0) (iblk m c 1 p0)

/-- What the output's staging buffer holds after the body at position `n`: by the case of the point, an odd point over
    what the point before left. -/
def outAt (c : Dev nD) : (n : ℕ) → n < cfg0.N → Vec F S4x512x256 .f32
  | 0, hn => outFirst c (grid0.coords p0) (mP p0) (hP p0) (mX p0) (hX p0) (mO p0) (hO p0) mS (Memref.isWhole_whole _) first_p0 half0_p0 not_half1_p0 (iblk m c 0 p0) (iblk m c 1 p0)
  | n + 1, hn =>
    if h : (n + 1) % 2 = 0 then
      outEven c (grid0.coords ⟨n + 1, hn⟩) (mP ⟨n + 1, hn⟩) (hP ⟨n + 1, hn⟩) (mX ⟨n + 1, hn⟩) (hX ⟨n + 1, hn⟩) (mO ⟨n + 1, hn⟩) (hO ⟨n + 1, hn⟩) mS (Memref.isWhole_whole _) (not_first_of_pos ⟨n + 1, hn⟩ (Nat.succ_ne_zero n)) (half0_of_even ⟨n + 1, hn⟩ h) (not_half1_of_even ⟨n + 1, hn⟩ h)
        (iblk m c 0 ⟨n + 1, hn⟩) (iblk m c 1 ⟨n + 1, hn⟩) (scr0 m c)
    else
      outOdd c (grid0.coords ⟨n + 1, hn⟩) (mP ⟨n + 1, hn⟩) (hP ⟨n + 1, hn⟩) (mX ⟨n + 1, hn⟩) (hX ⟨n + 1, hn⟩) (mO ⟨n + 1, hn⟩) (hO ⟨n + 1, hn⟩) mS (Memref.isWhole_whole _) (not_first_of_pos ⟨n + 1, hn⟩ (Nat.succ_ne_zero n)) (not_half0_of_odd ⟨n + 1, hn⟩ h) (half1_of_odd ⟨n + 1, hn⟩ h)
        (iblk m c 0 ⟨n + 1, hn⟩) (iblk m c 1 ⟨n + 1, hn⟩) (outAt c n (Nat.lt_of_succ_lt hn)) (scr0 m c)

theorem outAt_zero (c : Dev nD) :
    outAt m c p0.val p0.isLt = outFirst c (grid0.coords p0) (mP p0) (hP p0) (mX p0) (hX p0) (mO p0) (hO p0) mS (Memref.isWhole_whole _) first_p0 half0_p0 not_half1_p0 (iblk m c 0 p0) (iblk m c 1 p0) := rfl

theorem outAt_even (c : Dev nD) (t : Fin cfg0.N) (hz : t.val ≠ 0) (h : t.val % 2 = 0) :
    outAt m c t.val t.isLt = outEven c (grid0.coords t) (mP t) (hP t) (mX t) (hX t) (mO t) (hO t) mS (Memref.isWhole_whole _) (not_first_of_pos t hz) (half0_of_even t h) (not_half1_of_even t h)
        (iblk m c 0 t) (iblk m c 1 t) (scr0 m c) := by
  obtain ⟨n, hn⟩ := t
  cases n with
  | zero => exact absurd rfl hz
  | succ n => exact (dif_pos h).trans rfl

theorem outAt_odd (c : Dev nD) (t : Fin cfg0.N) (h : ¬t.val % 2 = 0) :
    outAt m c t.val t.isLt = outOdd c (grid0.coords t) (mP t) (hP t) (mX t) (hX t) (mO t) (hO t) mS (Memref.isWhole_whole _) (not_first_of_pos t (fun hz => h (by rw [hz]))) (not_half0_of_odd t h) (half1_of_odd t h)
        (iblk m c 0 t) (iblk m c 1 t) (outAt m c (t.val - 1) (Nat.lt_of_le_of_lt (Nat.sub_le _ _) t.isLt)) (scr0 m c) := by
  obtain ⟨n, hn⟩ := t
  cases n with
  | zero => exact absurd (Nat.zero_mod _) h
  | succ n => exact (dif_neg h).trans rfl

/-- The region invariant before position `n`: before point 0 the class's (the scratch at anything); afterwards the
    scratch at what point 0 left, and the generator register at some state. -/
def PhiS (c : Dev nD) : (n : ℕ) → n ≤ cfg0.N → sProp 𝕄
  | 0, _ => Pipeline.ΦA spec0 c
  | _ + 1, _ => iprop(iprop(owns (c : Thread nD τ) mS fullShare (scr0 m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) mS fullShare (scr0 m c)) ∗ (∃ r, prngReg c r)) := by
  cases n with
  | zero => exact absurd rfl hz
  | succ n => rfl

/-! ## The proof data -/

/-- The arrays as the region finds them; after the body at point `t` each input's buffer at its block and the output's
    at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The output window is stored into wherever the grid's coordinates are: each is of half 0 or of half 1. -/
theorem live2_all : ∀ i : grid0.Coords, cfg0.idle 2 i = false := by
  intro i
  show (!(k0_cond2 i == 1#1) && !(k0_cond3 i == 1#1)) = false
  unfold k0_cond2 k0_cond3
  have h : (i 1).val = 0 ∨ (i 1).val = 1 := by
    have := (i 1).isLt
    have h2 : (i 1).val < 2 := this
    omega
  rcases h with h | h <;> rw [h] <;> decide

/-- At an odd point the output's current staging buffer holds what the body left at the even point before: the point is
    not the first, the buffer was not written back between, the window is live and its blocks are whole. -/
theorem before2_odd (c : Dev nD) (t : Fin cfg0.N) (h : ¬t.val % 2 = 0) (d) :
    (dats m 0 c).before 2 t d = outAt m c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun hf => by have := (flush0_2 _).mp hf; dsimp only at this; omega)
    live2_all (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mP t) fullShare ((dats m 0 c).before 0 t d))
    ∗ (∃ d, owns (c : Thread nD τ) (mX t) fullShare ((dats m 0 c).before 1 t d))
    ∗ (∃ d, owns (c : Thread nD τ) (mO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the point's case is decided by its parity and by
    whether it is the first; at an odd point the output's buffer holds what the point before left; so the case's run
    applies, and its stores, which cover, determine what each buffer holds afterwards. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (mP t) fullShare ((dats m 0 c).after 0 t) from by
    unfold Dat.leavesExact; rw [live0 t], after0]
  rw [show (dats m 0 c).leavesExact 1 t = owns (c : Thread nD τ) (mX t) fullShare ((dats m 0 c).after 1 t) from by
    unfold Dat.leavesExact; rw [live1 t], after1]
  rw [show (dats m 0 c).leavesExact 2 t = owns (c : Thread nD τ) (mO t) fullShare ((dats m 0 c).after 2 t) from by
    unfold Dat.leavesExact; rw [live2 t], after2]
  have hN : t.val < 16 := lt_of_lt_of_eq t.isLt (show cfg0.N = 16 from N_0)
  by_cases h1 : t.val % 2 = 0
  · by_cases hz : t.val = 0
    · obtain rfl : t = p0 := Fin.ext hz
      rw [outAt_zero m c]
      unfold outFirst
      rw [PhiS_castSucc m c p0, PhiS_zero m c _ _ rfl, PhiA_eq]
      iintro ⟨⟨HS0, Hg⟩, Ho, ⟨%d0, H0⟩, ⟨%d1, H1⟩, ⟨%d2, H2⟩⟩
      iapply ((runFirst c (grid0.coords p0) _ _ _ _ _ _ _ _ first_p0 half0_p0 not_half1_p0 (iblk m c 0 p0) (iblk m c 1 p0)).2.2 Set.univ _)
      isplitl [H0]; · iexact H0
      isplitl [H1]; · iexact H1
      isplitl [H2]; · iexists _; iexact H2
      isplitl [HS0]; · iexact HS0
      iintro ⟨H0, H1, ⟨%e2, H2⟩, ⟨%es, HS0⟩⟩
      isplitl [HS0 Hg]
      · isplitl [HS0]
        · unfold owns; iexists _; isplitr
          swap; · iexact HS0
          ipureintro; exact View.read_writes_eq_canon _ _ _ (coverFirstS c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_eq_canon _ _ _ (coverFirstO c _ _ _ _ _ _ _ _ _ _ _ _ _ _)
    · rw [outAt_even m c t hz h1]
      unfold outEven
      rw [PhiS_castSucc m c t, PhiS_pos m c _ _ hz]
      iintro ⟨⟨HS0, Hg⟩, Ho, ⟨%d0, H0⟩, ⟨%d1, H1⟩, ⟨%d2, H2⟩⟩
      iapply ((runEven c (grid0.coords t) _ _ _ _ _ _ _ _ (not_first_of_pos t hz) (half0_of_even t h1) (not_half1_of_even t h1) (iblk m c 0 t) (iblk m c 1 t) (scr0 m c)).2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hg]
      · isplitl [HS0]
        · iexact HS0
        iexact Hg
      isplitl [Ho]; · iexact Ho
      isplitl [H0]; · iexact H0
      isplitl [H1]; · iexact H1
      unfold owns; iexists _; isplitr
      swap; · iexact H2
      ipureintro; exact View.read_writes_eq_canon _ _ _ (coverEven c _ _ _ _ _ _ _ _ _ _ _ _ _ _ _)
  · have hz : t.val ≠ 0 := fun hz => h1 (by rw [hz])
    rw [outAt_odd m c t h1]
    simp only [before2_odd m c t h1]
    unfold outOdd
    rw [PhiS_castSucc m c t, PhiS_pos m c _ _ hz]
    iintro ⟨⟨HS0, Hg⟩, Ho, ⟨%d0, H0⟩, ⟨%d1, H1⟩, ⟨%d2, H2⟩⟩
    iapply ((runOdd c (grid0.coords t) _ _ _ _ _ _ _ _ (not_first_of_pos t hz) (not_half0_of_odd t h1) (half1_of_odd t h1) (iblk m c 0 t) (iblk m c 1 t) _ (scr0 m c)).2 Set.univ _)
    isplitl [H0]; · iexact H0
    isplitl [H1]; · iexact H1
    isplitl [H2]; · iexact H2
    isplitl [HS0]; · iexact HS0
    iintro ⟨H0, H1, ⟨%e2, H2⟩, HS0⟩
    isplitl [HS0 Hg]
    · isplitl [HS0]
      · iexact HS0
      iexact Hg
    isplitl [Ho]; · iexact Ho
    isplitl [H0]; · iexact H0
    isplitl [H1]; · iexact H1
    unfold owns; iexists _; isplitr
    swap; · iexact H2
    ipureintro; exact View.read_writes_eq_canon _ _ _ (coverOdd c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before point 0. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨HS0, Hg⟩
  isplitl [HS0]
  · iexists _; iexact HS0
  iexact Hg

/-! ## The run and the frame -/

set_option backward.isDefEq.respectTransparency.types false in
/-- For any values, from any memory with zero counters: every weakly fair execution of the program terminates, and every
    final state has every array of the pipeline at what the proof data says and every other unscoped buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its two argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdeal.Cases.lean ====
/-
  What the three runs of the projection kernel's body share. The grid is 8 row blocks by 2 column halves, 16 points
  in row-major order, point `t` being row block `t / 2` and half `t % 2`. The body has three conditionals on the
  coordinates: the first (copy the staged half of `x` into the scratch) holds at point 0 only, the second (store the
  first-half products) at the even points, the third (add the second-half products) at the odd points. So three cases
  occur: point 0 (copy, then first half), the other even points (first half, from the scratch), the odd points (second
  half, added to what the even point before left). The output window is stored into at every point, and is written back
  after the odd points only.
-/
import proofs.«143561_g21036749816194_cont_8to1_1761_21_alg».proof.Proof.Gen.KernelIdeal.Frame
import proofs.«143561_g21036749816194_cont_8to1_1761_21_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's three conditions, decided over the grid -/

/-- "row block 0 and half 0", as the body computes it. -/
abbrev isFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at point 0 only. -/
theorem isFirst_iff : ∀ t : Fin cfg0.N, isFirst (grid0.coords t) ↔ t.val % 16 = 0 :=
  (by decide +kernel : ∀ t : Fin grid0.N, isFirst (grid0.coords t) ↔ t.val % 16 = 0)

/-- "half 0", as the body computes it. -/
abbrev isHalf0 (i : grid0.Coords) : Prop := k0_cond2 i = 1#1
/-- It holds at the even points. -/
theorem isHalf0_iff : ∀ t : Fin cfg0.N, isHalf0 (grid0.coords t) ↔ t.val % 2 = 0 :=
  (by decide +kernel : ∀ t : Fin grid0.N, isHalf0 (grid0.coords t) ↔ t.val % 2 = 0)

/-- "half 1", as the body computes it. -/
abbrev isHalf1 (i : grid0.Coords) : Prop := k0_cond3 i = 1#1
/-- It holds at the odd points. -/
theorem isHalf1_iff : ∀ t : Fin cfg0.N, isHalf1 (grid0.coords t) ↔ t.val % 2 = 1 :=
  (by decide +kernel : ∀ t : Fin grid0.N, isHalf1 (grid0.coords t) ↔ t.val % 2 = 1)

/-! ## No window is ever idle -/

theorem live0 : ∀ t : Fin cfg0.N, cfg0.idle 0 (grid0.coords t) = false := by decide +kernel
theorem live1 : ∀ t : Fin cfg0.N, cfg0.idle 1 (grid0.coords t) = false := by decide +kernel
/-- The output window is stored into at every point: each point is of half 0 or of half 1. -/
theorem live2 : ∀ t : Fin cfg0.N, cfg0.idle 2 (grid0.coords t) = false := by decide +kernel

/-! ## The memrefs the body is called with -/

abbrev mP (t : Fin cfg0.N) : Memref sig .tc .vmem S512x2048 .f32 := win0_0.stage (cfg0.slots t 0)
abbrev hP (t : Fin cfg0.N) : (mP t).IsWhole := hstage0_0 ((cfg0.slots t 0).cast nbuf0_0)
abbrev mX (t : Fin cfg0.N) : Memref sig .tc .vmem S4x2048x256 .f32 := win0_1.stage (cfg0.slots t 1)
abbrev hX (t : Fin cfg0.N) : (mX t).IsWhole := hstage0_1 ((cfg0.slots t 1).cast nbuf0_1)
abbrev mO (t : Fin cfg0.N) : Memref sig .tc .vmem S4x512x256 .f32 := win0_2.stage (cfg0.slots t 2)
abbrev hO (t : Fin cfg0.N) : (mO t).IsWhole := hstage0_2 ((cfg0.slots t 2).cast nbuf0_2)
/-- The scratch that keeps the first half of `x`: a whole scoped buffer of the kernel's own. -/
abbrev mS : Memref sig .tc .vmem S4x2048x256 .f32 := Memref.whole cc0_scratch0

/-- The class invariant with the scratch as a memref owned at some contents. -/
theorem PhiA_eq (c : Dev nD) :
    (Pipeline.ΦA spec0 c : sProp 𝕄)
      = iprop(iprop((∃ d, owns (c : Thread nD τ) mS fullShare d)) ∗ (∃ r, prngReg c r)) := by
  unfold Pipeline.ΦA; rw [scopedRest0_eq]; simp only [mS, owns_whole]; try rfl

end Cert.KernelIdeal.Body

end
-- ==== Proof.KernelIdeal.RunA.lean ====
/-
  The body's run at point 0: the staged half of `x` is copied into the scratch, and each of the four slabs of the
  output block is stored with the product of the staged block of `p` and the scratch's slab. The stores each buffer
  ends with are found by running the body; they are the witness of the statement.
-/
import proofs.«143561_g21036749816194_cont_8to1_1761_21_alg».proof.Proof.KernelIdeal.Cases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At point 0 (all of the first two conditions hold, the third fails), on whole memrefs — the two inputs at their
    contents, the output block and the scratch at anything — the body runs to a continuation that holds the inputs as
    they were, the output block with its stores `L2` written and the scratch with its stores `LS` written. -/
noncomputable def runFirst (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec F S512x2048 .f32) (x1 : Vec F S4x2048x256 .f32) :
    Σ' (L2 : List (View.Piece (Elt F) S4x512x256 .f32)), { LS : List (View.Piece (Elt F) S4x2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc0__proj_body i arg2 harg2 arg3 harg3 arg4 harg4 arg5 harg5) K } := by
  refine ⟨?_, ?_, fun E K => ?run⟩
  case run =>
    simp only [cc0__proj_body_eq_skeleton]; unfold cc0__proj_body_skel
    unfold owns
    iintro ⟨⟨%f0, %hf0, H0⟩, ⟨%f1, %hf1, H1⟩, ⟨%d2, %f2, -, H2⟩, ⟨%ds0, %fs0, -, HS0⟩, Hk⟩
    obtain rfl := harg2.eq_unread hf0; obtain rfl := harg3.eq_unread hf1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Body

end
-- ==== Proof.KernelIdeal.RunC.lean ====
/-
  The body's run at an even point other than 0: nothing is copied; each of the four slabs of the output block is
  stored with the product of the staged block of `p` and the scratch's slab, the scratch holding what point 0 put
  there. The stores the output block ends with are found by running the body.
-/
import proofs.«143561_g21036749816194_cont_8to1_1761_21_alg».proof.Proof.KernelIdeal.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At an even point other than 0 (only the second condition holds), on whole memrefs — the two inputs and the scratch
    at their contents, the output block at anything — the body runs to a continuation that holds the inputs and the
    scratch as they were and the output block with its stores `L2` written. -/
noncomputable def runEven (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : isHalf0 i) (hc2 : ¬isHalf1 i)
    (x0 : Vec F S512x2048 .f32) (x1 : Vec F S4x2048x256 .f32) (xs : Vec F S4x2048x256 .f32) :
    { L2 : List (View.Piece (Elt F) S4x512x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs) -∗ K ⟨⟩))
          ⊢ wp frame (wpE (defs₀ (F := F)) Variants.none c none) E (cc0__proj_body i arg2 harg2 arg3 harg3 arg4 harg4 arg5 harg5) K } := by
  refine ⟨?_, fun E K => ?run⟩
  case run =>
    simp only [cc0__proj_body_eq_skeleton]; unfold cc0__proj_body_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

end Cert.KernelIdeal.Body

end
-- ==== Proof.KernelIdeal.RunB.lean ====
/-
  The body's run at an odd point: each of the four slabs of the output block is loaded, the product of the staged
  block of `p` and the staged slab of the second half of `x` is added to it, and the sum is stored back. The output
  block holds what the even point before left. The stores it ends with are found by running the body.
-/
import proofs.«143561_g21036749816194_cont_8to1_1761_21_alg».proof.Proof.KernelIdeal.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At an odd point (only the third condition holds), on whole memrefs — the two inputs, the output block and the
    scratch at their contents — the body runs to a continuation that holds the inputs and the scratch as they were and
    the output block with its stores `L2` written. -/
noncomputable def runOdd (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : ¬isHalf0 i) (hc2 : isHalf1 i)
    (x0 : Vec F S512x2048 .f32) (x1 : Vec F S4x2048x256 .f32) (xo : Vec F S4x512x256 .f32) (xs : Vec F S4x2048x256 .f32) :
    { L2 : List (View.Piece (Elt F) S4x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare xo ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xs) -∗ K ⟨⟩))
          ⊢ wp frame (wpE (defs₀ (F := F)) Variants.none c none) E (cc0__proj_body i arg2 harg2 arg3 harg3 arg4 harg4 arg5 harg5) K } := by
  refine ⟨?_, fun E K => ?run⟩
  case run =>
    simp only [cc0__proj_body_eq_skeleton]; unfold cc0__proj_body_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; isplitr; · ipureintro; exact harg5.read_unread _
    iexact HS0

end Cert.KernelIdeal.Body

end
-- ==== Proof.KernelIdeal.Body.lean ====
/-
  The proof data of the projection kernel's pipeline and its body obligation, at any float instance.
  After the body at point 0 the scratch holds the staged half of `x` (whatever the one store left), and it is carried
  unchanged through every later point. After an even point the output block holds that point's four stores; after an
  odd point the four stores of the sums, computed over what the even point before left — the block is not written back
  between the two (it is written back after the odd points only) and the window is never idle. From these the frame
  run: every execution terminates, and the two argument arrays end as they began.
-/
import proofs.«143561_g21036749816194_cont_8to1_1761_21_alg».proof.Proof.KernelIdeal.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Each case's stores cover the buffer they go to -/

theorem coverFirstO (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec F S512x2048 .f32) (x1 : Vec F S4x2048x256 .f32) (y : S4x512x256.Idx) :
    ∃ pc ∈ (runFirst c i arg2 harg2 arg3 harg3 arg4 harg4 arg5 harg5 hc0 hc1 hc2 x0 x1).1, y ∈ pc.1.set :=
  View.cover_of_tiledL (runFirst c i arg2 harg2 arg3 harg3 arg4 harg4 arg5 harg5 hc0 hc1 hc2 x0 x1).1 S1x512x256.size (by sl_kernel_rfl) y

theorem coverFirstS (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec F S512x2048 .f32) (x1 : Vec F S4x2048x256 .f32) (y : S4x2048x256.Idx) :
    ∃ pc ∈ (runFirst c i arg2 harg2 arg3 harg3 arg4 harg4 arg5 harg5 hc0 hc1 hc2 x0 x1).2.1, y ∈ pc.1.set :=
  View.cover_of_tiledL (runFirst c i arg2 harg2 arg3 harg3 arg4 harg4 arg5 harg5 hc0 hc1 hc2 x0 x1).2.1 S4x2048x256.size (by sl_kernel_rfl) y

theorem coverEven (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : isHalf0 i) (hc2 : ¬isHalf1 i)
    (x0 : Vec F S512x2048 .f32) (x1 : Vec F S4x2048x256 .f32) (xs : Vec F S4x2048x256 .f32) (y : S4x512x256.Idx) :
    ∃ pc ∈ (runEven c i arg2 harg2 arg3 harg3 arg4 harg4 arg5 harg5 hc0 hc1 hc2 x0 x1 xs).1, y ∈ pc.1.set :=
  View.cover_of_tiledL (runEven c i arg2 harg2 arg3 harg3 arg4 harg4 arg5 harg5 hc0 hc1 hc2 x0 x1 xs).1 S1x512x256.size (by sl_kernel_rfl) y

theorem coverOdd (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : ¬isHalf0 i) (hc2 : isHalf1 i)
    (x0 : Vec F S512x2048 .f32) (x1 : Vec F S4x2048x256 .f32) (xo : Vec F S4x512x256 .f32) (xs : Vec F S4x2048x256 .f32) (y : S4x512x256.Idx) :
    ∃ pc ∈ (runOdd c i arg2 harg2 arg3 harg3 arg4 harg4 arg5 harg5 hc0 hc1 hc2 x0 x1 xo xs).1, y ∈ pc.1.set :=
  View.cover_of_tiledL (runOdd c i arg2 harg2 arg3 harg3 arg4 harg4 arg5 harg5 hc0 hc1 hc2 x0 x1 xo xs).1 S1x512x256.size (by sl_kernel_rfl) y

/-! ## What each case leaves: the contents its stores determine -/

/-- The output block after point 0. -/
def outFirst (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec F S512x2048 .f32) (x1 : Vec F S4x2048x256 .f32) : Vec F S4x512x256 .f32 :=
  View.canon (runFirst c i arg2 harg2 arg3 harg3 arg4 harg4 arg5 harg5 hc0 hc1 hc2 x0 x1).1

/-- The scratch after point 0. -/
def scrFirst (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec F S512x2048 .f32) (x1 : Vec F S4x2048x256 .f32) : Vec F S4x2048x256 .f32 :=
  View.canon (runFirst c i arg2 harg2 arg3 harg3 arg4 harg4 arg5 harg5 hc0 hc1 hc2 x0 x1).2.1

/-- The output block after an even point other than 0, the scratch holding `xs`. -/
def outEven (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : isHalf0 i) (hc2 : ¬isHalf1 i)
    (x0 : Vec F S512x2048 .f32) (x1 : Vec F S4x2048x256 .f32) (xs : Vec F S4x2048x256 .f32) : Vec F S4x512x256 .f32 :=
  View.canon (runEven c i arg2 harg2 arg3 harg3 arg4 harg4 arg5 harg5 hc0 hc1 hc2 x0 x1 xs).1

/-- The output block after an odd point that found `xo` in it. -/
def outOdd (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : ¬isHalf0 i) (hc2 : isHalf1 i)
    (x0 : Vec F S512x2048 .f32) (x1 : Vec F S4x2048x256 .f32) (xo : Vec F S4x512x256 .f32) (xs : Vec F S4x2048x256 .f32) : Vec F S4x512x256 .f32 :=
  View.canon (runOdd c i arg2 harg2 arg3 harg3 arg4 harg4 arg5 harg5 hc0 hc1 hc2 x0 x1 xo xs).1

/-! ## Point by point -/

theorem N_pos : 0 < cfg0.N := by rw [show cfg0.N = 16 from N_0]; decide
/-- Point 0. -/
abbrev p0 : Fin cfg0.N := ⟨0, N_pos⟩

theorem first_p0 : isFirst (grid0.coords p0) := (isFirst_iff p0).mpr (Nat.zero_mod _)
theorem half0_p0 : isHalf0 (grid0.coords p0) := (isHalf0_iff p0).mpr (Nat.zero_mod _)
theorem not_half1_p0 : ¬isHalf1 (grid0.coords p0) := fun h => absurd ((isHalf1_iff p0).mp h) (by decide)

theorem not_first_of_pos (t : Fin cfg0.N) (h : t.val ≠ 0) : ¬isFirst (grid0.coords t) := fun hf => by
  have h' := (isFirst_iff t).mp hf
  have hN : t.val < 16 := lt_of_lt_of_eq t.isLt (show cfg0.N = 16 from N_0)
  omega
theorem half0_of_even (t : Fin cfg0.N) (h : t.val % 2 = 0) : isHalf0 (grid0.coords t) := (isHalf0_iff t).mpr h
theorem not_half1_of_even (t : Fin cfg0.N) (h : t.val % 2 = 0) : ¬isHalf1 (grid0.coords t) := fun hf => by
  have h' := (isHalf1_iff t).mp hf; omega
theorem not_half0_of_odd (t : Fin cfg0.N) (h : ¬t.val % 2 = 0) : ¬isHalf0 (grid0.coords t) := fun hf => h ((isHalf0_iff t).mp hf)
theorem half1_of_odd (t : Fin cfg0.N) (h : ¬t.val % 2 = 0) : isHalf1 (grid0.coords t) := (isHalf1_iff t).mpr (by omega)

/-- What the scratch holds from point 0 on: what point 0's copy left. -/
def scr0 (c : Dev nD) : Vec F S4x2048x256 .f32 :=
  scrFirst c (grid0.coords p0) (mP p0) (hP p0) (mX p0) (hX p0) (mO p0) (hO p0) mS (Memref.isWhole_whole _) first_p0 half0_p0 not_half1_p0 (iblk m c 0 p0) (iblk m c 1 p0)

/-- What the output's staging buffer holds after the body at position `n`: by the case of the point, an odd point over
    what the point before left. -/
def outAt (c : Dev nD) : (n : ℕ) → n < cfg0.N → Vec F S4x512x256 .f32
  | 0, hn => outFirst c (grid0.coords p0) (mP p0) (hP p0) (mX p0) (hX p0) (mO p0) (hO p0) mS (Memref.isWhole_whole _) first_p0 half0_p0 not_half1_p0 (iblk m c 0 p0) (iblk m c 1 p0)
  | n + 1, hn =>
    if h : (n + 1) % 2 = 0 then
      outEven c (grid0.coords ⟨n + 1, hn⟩) (mP ⟨n + 1, hn⟩) (hP ⟨n + 1, hn⟩) (mX ⟨n + 1, hn⟩) (hX ⟨n + 1, hn⟩) (mO ⟨n + 1, hn⟩) (hO ⟨n + 1, hn⟩) mS (Memref.isWhole_whole _) (not_first_of_pos ⟨n + 1, hn⟩ (Nat.succ_ne_zero n)) (half0_of_even ⟨n + 1, hn⟩ h) (not_half1_of_even ⟨n + 1, hn⟩ h)
        (iblk m c 0 ⟨n + 1, hn⟩) (iblk m c 1 ⟨n + 1, hn⟩) (scr0 m c)
    else
      outOdd c (grid0.coords ⟨n + 1, hn⟩) (mP ⟨n + 1, hn⟩) (hP ⟨n + 1, hn⟩) (mX ⟨n + 1, hn⟩) (hX ⟨n + 1, hn⟩) (mO ⟨n + 1, hn⟩) (hO ⟨n + 1, hn⟩) mS (Memref.isWhole_whole _) (not_first_of_pos ⟨n + 1, hn⟩ (Nat.succ_ne_zero n)) (not_half0_of_odd ⟨n + 1, hn⟩ h) (half1_of_odd ⟨n + 1, hn⟩ h)
        (iblk m c 0 ⟨n + 1, hn⟩) (iblk m c 1 ⟨n + 1, hn⟩) (outAt c n (Nat.lt_of_succ_lt hn)) (scr0 m c)

theorem outAt_zero (c : Dev nD) :
    outAt m c p0.val p0.isLt = outFirst c (grid0.coords p0) (mP p0) (hP p0) (mX p0) (hX p0) (mO p0) (hO p0) mS (Memref.isWhole_whole _) first_p0 half0_p0 not_half1_p0 (iblk m c 0 p0) (iblk m c 1 p0) := rfl

theorem outAt_even (c : Dev nD) (t : Fin cfg0.N) (hz : t.val ≠ 0) (h : t.val % 2 = 0) :
    outAt m c t.val t.isLt = outEven c (grid0.coords t) (mP t) (hP t) (mX t) (hX t) (mO t) (hO t) mS (Memref.isWhole_whole _) (not_first_of_pos t hz) (half0_of_even t h) (not_half1_of_even t h)
        (iblk m c 0 t) (iblk m c 1 t) (scr0 m c) := by
  obtain ⟨n, hn⟩ := t
  cases n with
  | zero => exact absurd rfl hz
  | succ n => exact (dif_pos h).trans rfl

theorem outAt_odd (c : Dev nD) (t : Fin cfg0.N) (h : ¬t.val % 2 = 0) :
    outAt m c t.val t.isLt = outOdd c (grid0.coords t) (mP t) (hP t) (mX t) (hX t) (mO t) (hO t) mS (Memref.isWhole_whole _) (not_first_of_pos t (fun hz => h (by rw [hz]))) (not_half0_of_odd t h) (half1_of_odd t h)
        (iblk m c 0 t) (iblk m c 1 t) (outAt m c (t.val - 1) (Nat.lt_of_le_of_lt (Nat.sub_le _ _) t.isLt)) (scr0 m c) := by
  obtain ⟨n, hn⟩ := t
  cases n with
  | zero => exact absurd (Nat.zero_mod _) h
  | succ n => exact (dif_neg h).trans rfl

/-- The region invariant before position `n`: before point 0 the class's (the scratch at anything); afterwards the
    scratch at what point 0 left, and the generator register at some state. -/
def PhiS (c : Dev nD) : (n : ℕ) → n ≤ cfg0.N → sProp 𝕄
  | 0, _ => Pipeline.ΦA spec0 c
  | _ + 1, _ => iprop(iprop(owns (c : Thread nD τ) mS fullShare (scr0 m c)) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) mS fullShare (scr0 m c)) ∗ (∃ r, prngReg c r)) := by
  cases n with
  | zero => exact absurd rfl hz
  | succ n => rfl

/-! ## The proof data -/

/-- The arrays as the region finds them; after the body at point `t` each input's buffer at its block and the output's
    at `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t.val t.isLt := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- The output window is stored into wherever the grid's coordinates are: each is of half 0 or of half 1. -/
theorem live2_all : ∀ i : grid0.Coords, cfg0.idle 2 i = false := by
  intro i
  show (!(k0_cond2 i == 1#1) && !(k0_cond3 i == 1#1)) = false
  unfold k0_cond2 k0_cond3
  have h : (i 1).val = 0 ∨ (i 1).val = 1 := by
    have := (i 1).isLt
    have h2 : (i 1).val < 2 := this
    omega
  rcases h with h | h <;> rw [h] <;> decide

/-- At an odd point the output's current staging buffer holds what the body left at the even point before: the point is
    not the first, the buffer was not written back between, the window is live and its blocks are whole. -/
theorem before2_odd (c : Dev nD) (t : Fin cfg0.N) (h : ¬t.val % 2 = 0) (d) :
    (dats m 0 c).before 2 t d = outAt m c (t.val - 1) (Nat.lt_of_le_of_lt (Nat.sub_le _ _) t.isLt) := by
  have hN : t.val < 16 := lt_of_lt_of_eq t.isLt (show cfg0.N = 16 from N_0)
  rw [Dat.before_out_kept _ 2 rfl t (by omega) (Bool.eq_false_iff.mpr fun hf => by have := (flush0_2 _).mp hf; dsimp only at this; omega)
    live2_all (fun _ _ => rfl)]
  dsimp only [dats]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (mP t) fullShare ((dats m 0 c).before 0 t d))
    ∗ (∃ d, owns (c : Thread nD τ) (mX t) fullShare ((dats m 0 c).before 1 t d))
    ∗ (∃ d, owns (c : Thread nD τ) (mO t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the point's case is decided by its parity and by
    whether it is the first; at an odd point the output's buffer holds what the point before left; so the case's run
    applies, and its stores, which cover, determine what each buffer holds afterwards. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_pos m c _ _ (Nat.succ_ne_zero _)]
  rw [show (dats m 0 c).leavesExact 0 t = owns (c : Thread nD τ) (mP t) fullShare ((dats m 0 c).after 0 t) from by
    unfold Dat.leavesExact; rw [live0 t], after0]
  rw [show (dats m 0 c).leavesExact 1 t = owns (c : Thread nD τ) (mX t) fullShare ((dats m 0 c).after 1 t) from by
    unfold Dat.leavesExact; rw [live1 t], after1]
  rw [show (dats m 0 c).leavesExact 2 t = owns (c : Thread nD τ) (mO t) fullShare ((dats m 0 c).after 2 t) from by
    unfold Dat.leavesExact; rw [live2 t], after2]
  have hN : t.val < 16 := lt_of_lt_of_eq t.isLt (show cfg0.N = 16 from N_0)
  by_cases h1 : t.val % 2 = 0
  · by_cases hz : t.val = 0
    · obtain rfl : t = p0 := Fin.ext hz
      rw [outAt_zero m c]
      unfold outFirst
      rw [PhiS_castSucc m c p0, PhiS_zero m c _ _ rfl, PhiA_eq]
      iintro ⟨⟨HS0, Hg⟩, Ho, ⟨%d0, H0⟩, ⟨%d1, H1⟩, ⟨%d2, H2⟩⟩
      iapply ((runFirst c (grid0.coords p0) _ _ _ _ _ _ _ _ first_p0 half0_p0 not_half1_p0 (iblk m c 0 p0) (iblk m c 1 p0)).2.2 Set.univ _)
      isplitl [H0]; · iexact H0
      isplitl [H1]; · iexact H1
      isplitl [H2]; · iexists _; iexact H2
      isplitl [HS0]; · iexact HS0
      iintro ⟨H0, H1, ⟨%e2, H2⟩, ⟨%es, HS0⟩⟩
      isplitl [HS0 Hg]
      · isplitl [HS0]
        · unfold owns; iexists _; isplitr
          swap; · iexact HS0
          ipureintro; exact View.read_writes_eq_canon _ _ _ (coverFirstS c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_eq_canon _ _ _ (coverFirstO c _ _ _ _ _ _ _ _ _ _ _ _ _ _)
    · rw [outAt_even m c t hz h1]
      unfold outEven
      rw [PhiS_castSucc m c t, PhiS_pos m c _ _ hz]
      iintro ⟨⟨HS0, Hg⟩, Ho, ⟨%d0, H0⟩, ⟨%d1, H1⟩, ⟨%d2, H2⟩⟩
      iapply ((runEven c (grid0.coords t) _ _ _ _ _ _ _ _ (not_first_of_pos t hz) (half0_of_even t h1) (not_half1_of_even t h1) (iblk m c 0 t) (iblk m c 1 t) (scr0 m c)).2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hg]
      · isplitl [HS0]
        · iexact HS0
        iexact Hg
      isplitl [Ho]; · iexact Ho
      isplitl [H0]; · iexact H0
      isplitl [H1]; · iexact H1
      unfold owns; iexists _; isplitr
      swap; · iexact H2
      ipureintro; exact View.read_writes_eq_canon _ _ _ (coverEven c _ _ _ _ _ _ _ _ _ _ _ _ _ _ _)
  · have hz : t.val ≠ 0 := fun hz => h1 (by rw [hz])
    rw [outAt_odd m c t h1]
    simp only [before2_odd m c t h1]
    unfold outOdd
    rw [PhiS_castSucc m c t, PhiS_pos m c _ _ hz]
    iintro ⟨⟨HS0, Hg⟩, Ho, ⟨%d0, H0⟩, ⟨%d1, H1⟩, ⟨%d2, H2⟩⟩
    iapply ((runOdd c (grid0.coords t) _ _ _ _ _ _ _ _ (not_first_of_pos t hz) (not_half0_of_odd t h1) (half1_of_odd t h1) (iblk m c 0 t) (iblk m c 1 t) _ (scr0 m c)).2 Set.univ _)
    isplitl [H0]; · iexact H0
    isplitl [H1]; · iexact H1
    isplitl [H2]; · iexact H2
    isplitl [HS0]; · iexact HS0
    iintro ⟨H0, H1, ⟨%e2, H2⟩, HS0⟩
    isplitl [HS0 Hg]
    · isplitl [HS0]
      · iexact HS0
      iexact Hg
    isplitl [Ho]; · iexact Ho
    isplitl [H0]; · iexact H0
    isplitl [H1]; · iexact H1
    unfold owns; iexists _; isplitr
    swap; · iexact H2
    ipureintro; exact View.read_writes_eq_canon _ _ _ (coverOdd c _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before point 0. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the class's back: what the scratch holds is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), PhiA_eq]
  iintro ⟨HS0, Hg⟩
  isplitl [HS0]
  · iexists _; iexact HS0
  iexact Hg

/-! ## The run and the frame -/

set_option backward.isDefEq.respectTransparency.types false in
/-- For any values, from any memory with zero counters: every weakly fair execution of the program terminates, and every
    final state has every array of the pipeline at what the proof data says and every other unscoped buffer as the region
    found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its two argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.KernelIdeal.Payloads.lean ====
/-
  The arithmetic of the projection kernel's stores, read at an index over the extended reals. Every store into the
  output block writes one slab [1, 512, 256]: the product of the staged [512, 2048] block `a` of the matrix and one
  [2048, 256] slab `v` of the staged half of `x` — entry (r, d) is `Σ_k a[r, k] · v[k, d]`, `k` over the 2048
  columns of the block — either alone (the first half) or added to the slab `o` the block held (the second half).
  The changes of shape between [1, n, 256] and [n, 256] keep the row-major position, so they only drop or add the
  leading coordinate 0.
-/
import proofs.«143561_g21036749816194_cont_8to1_1761_21_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen
open Idealize.ShloMosaic Idealize.ShloMosaic.ValueIdx

/-- A [512, 256] matrix seen as one slab [1, 512, 256]: entry [u, r, d] is entry [r, d]. -/
theorem lift_apply (y : FVec Ideal S512x256 .f32) (x : S1x512x256.Idx) :
    shapeCast S1x512x256 y shapeCasts_S512x256_S1x512x256 x = y (ix2 (x 1) (x 2)) :=
  shapeCast_apply y shapeCasts_S512x256_S1x512x256 x (ix2 (x 1) (x 2)) (by
    rewrite [Shape.rowMajor_val_two, Shape.rowMajor_val_three]
    have h0 : (x 0).val < 1 := (x 0).isLt
    show (x 1).val * 256 + (x 2).val = ((x 0).val * 512 + (x 1).val) * 256 + (x 2).val
    omega)

/-- One slab [1, 512, 256] seen as a [512, 256] matrix: entry [r, d] is entry [0, r, d]. -/
theorem drop_apply (o : FVec Ideal S1x512x256 .f32) (j : S512x256.Idx) :
    shapeCast S512x256 o shapeCasts_S1x512x256_S512x256 j = o (ix3 (0 : Fin 1) (j 0) (j 1)) :=
  shapeCast_apply o shapeCasts_S1x512x256_S512x256 j (ix3 (0 : Fin 1) (j 0) (j 1)) (by
    rewrite [Shape.rowMajor_val_two, Shape.rowMajor_val_three]
    show (0 * 512 + (j 0).val) * 256 + (j 1).val = (j 0).val * 256 + (j 1).val
    omega)

/-- One slab [1, 2048, 256] seen as a [2048, 256] matrix: entry [k, d] is entry [0, k, d]. -/
theorem dropX_apply (v : FVec Ideal S1x2048x256 .f32) (j : S2048x256.Idx) :
    shapeCast S2048x256 v shapeCasts_S1x2048x256_S2048x256 j = v (ix3 (0 : Fin 1) (j 0) (j 1)) :=
  shapeCast_apply v shapeCasts_S1x2048x256_S2048x256 j (ix3 (0 : Fin 1) (j 0) (j 1)) (by
    rewrite [Shape.rowMajor_val_two, Shape.rowMajor_val_three]
    show (0 * 2048 + (j 0).val) * 256 + (j 1).val = (j 0).val * 256 + (j 1).val
    omega)

/-! ## The matrix product at an index -/

theorem lhs0 (i : S512x256.Idx) (q : dot_S512x2048_S2048x256_S512x256_1_0_0_1_n_n.contr.Idx) :
    (dot_S512x2048_S2048x256_S512x256_1_0_0_1_n_n.lhsIdx i q 0).val = (i 0).val := by
  unfold DotDims.lhsIdx
  rw [dif_neg (show ¬(0 : Fin S512x2048.rank) ∈ dot_S512x2048_S2048x256_S512x256_1_0_0_1_n_n.lhsBatch by decide), dif_pos (show (0 : Fin S512x2048.rank) ∈ dot_S512x2048_S2048x256_S512x256_1_0_0_1_n_n.lhsNonContracting by decide)]
  rfl
theorem lhs1 (i : S512x256.Idx) (q : dot_S512x2048_S2048x256_S512x256_1_0_0_1_n_n.contr.Idx) :
    (dot_S512x2048_S2048x256_S512x256_1_0_0_1_n_n.lhsIdx i q 1).val = (q ⟨0, by decide⟩).val :=
  dot_S512x2048_S2048x256_S512x256_1_0_0_1_n_n.lhsIdx_val_of_single rfl i q
theorem rhs0 (i : S512x256.Idx) (q : dot_S512x2048_S2048x256_S512x256_1_0_0_1_n_n.contr.Idx) :
    (dot_S512x2048_S2048x256_S512x256_1_0_0_1_n_n.rhsIdx i q 0).val = (q ⟨0, by decide⟩).val :=
  dot_S512x2048_S2048x256_S512x256_1_0_0_1_n_n.rhsIdx_val_of_single rfl i q
theorem rhs1 (i : S512x256.Idx) (q : dot_S512x2048_S2048x256_S512x256_1_0_0_1_n_n.contr.Idx) :
    (dot_S512x2048_S2048x256_S512x256_1_0_0_1_n_n.rhsIdx i q 1).val = (i 1).val := by
  unfold DotDims.rhsIdx
  rw [dif_neg (show ¬(1 : Fin S2048x256.rank) ∈ dot_S512x2048_S2048x256_S512x256_1_0_0_1_n_n.rhsBatch by decide), dif_pos (show (1 : Fin S2048x256.rank) ∈ dot_S512x2048_S2048x256_S512x256_1_0_0_1_n_n.rhsNonContracting by decide)]
  rfl

/-- The product of a [512, 2048] block and a [2048, 256] matrix into a zero accumulator, at [r, d], is
    `Σ_k a[r, k] · w[k, d]` over the 2048 contracted positions. -/
theorem mm_apply (a : FVec Ideal S512x2048 .f32) (w : FVec Ideal S2048x256 .f32) (j : S512x256.Idx) :
    matmul dot_S512x2048_S2048x256_S512x256_1_0_0_1_n_n none a w (constant (F := Ideal) S512x256 .f32 0x00000000#32) j
      = ∑ k : Fin 2048, a (ix2 (j 0) k) * w (ix2 k (j 1)) := by
  refine (Ideal.matmul_constant_zero_apply dot_S512x2048_S2048x256_S512x256_1_0_0_1_n_n none a w j).trans ?_
  rw [← Equiv.sum_comp (ValueIdx.contrEquiv1 dot_S512x2048_S2048x256_S512x256_1_0_0_1_n_n 2048 rfl rfl).symm]
  refine Finset.sum_congr rfl fun k _ => ?_
  have hk := ValueIdx.contrEquiv1_symm_val dot_S512x2048_S2048x256_S512x256_1_0_0_1_n_n 2048 rfl rfl k
  have el : dot_S512x2048_S2048x256_S512x256_1_0_0_1_n_n.lhsIdx j ((ValueIdx.contrEquiv1 dot_S512x2048_S2048x256_S512x256_1_0_0_1_n_n 2048 rfl rfl).symm k) = ix2 (j 0) k := funext fun a => Fin.ext (by
    match a with
    | ⟨0, _⟩ => exact lhs0 _ _
    | ⟨1, _⟩ => exact (lhs1 _ _).trans hk)
  have er : dot_S512x2048_S2048x256_S512x256_1_0_0_1_n_n.rhsIdx j ((ValueIdx.contrEquiv1 dot_S512x2048_S2048x256_S512x256_1_0_0_1_n_n 2048 rfl rfl).symm k) = ix2 k (j 1) := funext fun a => Fin.ext (by
    match a with
    | ⟨0, _⟩ => exact (rhs0 _ _).trans hk
    | ⟨1, _⟩ => exact rhs1 _ _)
  rw [el, er] <;> rfl

/-- The slab product: one [1, 512, 256] slab whose entry [u, r, d] is `Σ_k a[r, k] · v[0, k, d]`. -/
theorem prod_apply (a : FVec Ideal S512x2048 .f32) (v : FVec Ideal S1x2048x256 .f32) (x : S1x512x256.Idx) :
    shapeCast S1x512x256 (matmul dot_S512x2048_S2048x256_S512x256_1_0_0_1_n_n none a (shapeCast S2048x256 v shapeCasts_S1x2048x256_S2048x256) (constant (F := Ideal) S512x256 .f32 0x00000000#32)) shapeCasts_S512x256_S1x512x256 x
      = ∑ k : Fin 2048, a (ix2 (x 1) k) * v (ix3 (0 : Fin 1) k (x 2)) :=
  (lift_apply _ x).trans ((mm_apply a _ (ix2 (x 1) (x 2))).trans
    (Finset.sum_congr rfl fun k _ => congrArg (a (ix2 (x 1) k) * ·) (dropX_apply v (ix2 k (x 2)))))

/-- The slab the block held plus the slab product: entry [u, r, d] is `o[0, r, d] + Σ_k a[r, k] · v[0, k, d]`. -/
theorem acc_apply (a : FVec Ideal S512x2048 .f32) (o : FVec Ideal S1x512x256 .f32) (v : FVec Ideal S1x2048x256 .f32) (x : S1x512x256.Idx) :
    shapeCast S1x512x256 (addf (shapeCast S512x256 o shapeCasts_S1x512x256_S512x256)
        (matmul dot_S512x2048_S2048x256_S512x256_1_0_0_1_n_n none a (shapeCast S2048x256 v shapeCasts_S1x2048x256_S2048x256) (constant (F := Ideal) S512x256 .f32 0x00000000#32))) shapeCasts_S512x256_S1x512x256 x
      = o (ix3 (0 : Fin 1) (x 1) (x 2)) + ∑ k : Fin 2048, a (ix2 (x 1) k) * v (ix3 (0 : Fin 1) k (x 2)) :=
  (lift_apply _ x).trans ((addf_apply _ _ _).trans (congrArg₂ (· + ·) (drop_apply o (ix2 (x 1) (x 2)))
    ((mm_apply a _ (ix2 (x 1) (x 2))).trans
      (Finset.sum_congr rfl fun k _ => congrArg (a (ix2 (x 1) k) * ·) (dropX_apply v (ix2 k (x 2)))))))

/-! ## The stores' payloads -/

theorem pay1_eq (v : Vec Ideal S4x2048x256 .f32) : k0_pay1 (F := Ideal) v = v := shapeCast_self v _

theorem pay2_apply (a : Vec Ideal S512x2048 .f32) (v : Vec Ideal S1x2048x256 .f32) (x : S1x512x256.Idx) :
    k0_pay2 (F := Ideal) a v x = ∑ k : Fin 2048, a (ix2 (x 1) k) * v (ix3 (0 : Fin 1) k (x 2)) := prod_apply a v x
theorem pay3_apply (a : Vec Ideal S512x2048 .f32) (v : Vec Ideal S1x2048x256 .f32) (x : S1x512x256.Idx) :
    k0_pay3 (F := Ideal) a v x = ∑ k : Fin 2048, a (ix2 (x 1) k) * v (ix3 (0 : Fin 1) k (x 2)) := prod_apply a v x
theorem pay4_apply (a : Vec Ideal S512x2048 .f32) (v : Vec Ideal S1x2048x256 .f32) (x : S1x512x256.Idx) :
    k0_pay4 (F := Ideal) a v x = ∑ k : Fin 2048, a (ix2 (x 1) k) * v (ix3 (0 : Fin 1) k (x 2)) := prod_apply a v x
theorem pay5_apply (a : Vec Ideal S512x2048 .f32) (v : Vec Ideal S1x2048x256 .f32) (x : S1x512x256.Idx) :
    k0_pay5 (F := Ideal) a v x = ∑ k : Fin 2048, a (ix2 (x 1) k) * v (ix3 (0 : Fin 1) k (x 2)) := prod_apply a v x

theorem pay8_apply (a : Vec Ideal S512x2048 .f32) (o : Vec Ideal S1x512x256 .f32) (v : Vec Ideal S1x2048x256 .f32) (x : S1x512x256.Idx) :
    k0_pay8 (F := Ideal) a o v x = o (ix3 (0 : Fin 1) (x 1) (x 2)) + ∑ k : Fin 2048, a (ix2 (x 1) k) * v (ix3 (0 : Fin 1) k (x 2)) := acc_apply a o v x
theorem pay9_apply (a : Vec Ideal S512x2048 .f32) (o : Vec Ideal S1x512x256 .f32) (v : Vec Ideal S1x2048x256 .f32) (x : S1x512x256.Idx) :
    k0_pay9 (F := Ideal) a o v x = o (ix3 (0 : Fin 1) (x 1) (x 2)) + ∑ k : Fin 2048, a (ix2 (x 1) k) * v (ix3 (0 : Fin 1) k (x 2)) := acc_apply a o v x
theorem pay7_apply (a : Vec Ideal S512x2048 .f32) (o : Vec Ideal S1x512x256 .f32) (v : Vec Ideal S1x2048x256 .f32) (x : S1x512x256.Idx) :
    k0_pay7 (F := Ideal) a o v x = o (ix3 (0 : Fin 1) (x 1) (x 2)) + ∑ k : Fin 2048, a (ix2 (x 1) k) * v (ix3 (0 : Fin 1) k (x 2)) := acc_apply a o v x
theorem pay6_apply (a : Vec Ideal S512x2048 .f32) (o : Vec Ideal S1x512x256 .f32) (v : Vec Ideal S1x2048x256 .f32) (x : S1x512x256.Idx) :
    k0_pay6 (F := Ideal) (k0_pay10 (F := Ideal) a o v) x = o (ix3 (0 : Fin 1) (x 1) (x 2)) + ∑ k : Fin 2048, a (ix2 (x 1) k) * v (ix3 (0 : Fin 1) k (x 2)) := acc_apply a o v x

end Cert.KernelIdeal.Val

end
-- ==== Proof.KernelIdeal.Blocks.lean ====
/-
  Where the projection kernel's blocks sit in their arrays, and how four slab stores read back. At point `t` (row
  block `t / 2`, half `t % 2`) the matrix's staged block is rows `512 (t / 2) …` and columns `2048 (t % 2) …` of
  `p`; the staged half of `x` is rows `0 …` at point 0 and rows `2048 …` at every other point; the output block is
  rows `512 (t / 2) …` of the result. A block's coordinate in its array is always index × size + the coordinate inside
  the block. Four stores of [1, 512, 256] slabs at leading offsets 0, 1, 2, 3 fill a [4, 512, 256] block; entry
  [b, r, d] of the block then holds entry [0, r, d] of the slab stored at offset `b`.
-/
import proofs.«143561_g21036749816194_cont_8to1_1761_21_alg».proof.Proof.Gen.KernelIdeal.Frame
import Idealize.ShloMosaic.Lib.ValueIdx
import Idealize.ShloMosaic.Lib.Pipeline.Value

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem

variable {F : FTy → Type} [FloatOps F]
variable (m : (ℓ : Loc nD τ sig) → Buf (Elt F) ℓ)

/-! ## The printed index maps, decided over the grid -/

theorem idxP : ∀ t : Fin cfg0.N, win0_0.index t (0 : Fin 2) = t.val / 2 ∧ win0_0.index t (1 : Fin 2) = t.val % 2 :=
  (by decide +kernel : ∀ t : Fin grid0.N, _)

theorem idxX : ∀ t : Fin cfg0.N, win0_1.index t (0 : Fin 3) = 0 ∧ win0_1.index t (1 : Fin 3) = (if t.val = 0 then 0 else 1)
    ∧ win0_1.index t (2 : Fin 3) = 0 :=
  (by decide +kernel : ∀ t : Fin grid0.N, _)

theorem idxO : ∀ t : Fin cfg0.N, win0_2.index t (0 : Fin 3) = 0 ∧ win0_2.index t (1 : Fin 3) = t.val / 2
    ∧ win0_2.index t (2 : Fin 3) = 0 :=
  (by decide +kernel : ∀ t : Fin grid0.N, _)

/-! ## The input blocks read at an index -/

/-- The matrix's block at point `t`, entry [r, k], is `p[512 (t / 2) + r, 2048 (t % 2) + k]`. -/
theorem iblkP_apply (c : Dev nD) (t : Fin cfg0.N) (r : Fin 512) (k : Fin 2048) (n q : Fin 4096)
    (hn : n.val = 512 * (t.val / 2) + r.val) (hq : q.val = 2048 * (t.val % 2) + k.val) :
    (iblk m c 0 t : Vec F S512x2048 .f32) (ix2 r k) = V m c main_arg1 (ix2 n q) := by
  obtain ⟨e0, e1⟩ := idxP t
  unfold iblk
  rw [View.read_apply]
  show V m c main_arg1 _ = V m c main_arg1 _
  congr 1
  funext a
  apply Fin.ext
  match a with
  | ⟨0, _⟩ => show win0_0.index t (0 : Fin 2) * 512 + 1 * r.val = n.val; rw [e0, hn]; omega
  | ⟨1, _⟩ => show win0_0.index t (1 : Fin 2) * 2048 + 1 * k.val = q.val; rw [e1, hq]; omega

/-- The staged half of `x` at point 0, entry [b, k, d], is `x[b, k, d]`: the first half. -/
theorem iblkX_zero_apply (c : Dev nD) (t : Fin cfg0.N) (ht : t.val = 0) (b : Fin 4) (k : Fin 2048) (d : Fin 256) (q : Fin 4096)
    (hq : q.val = k.val) :
    (iblk m c 1 t : Vec F S4x2048x256 .f32) (ix3 b k d) = V m c main_arg0 (ix3 b q d) := by
  obtain ⟨e0, e1, e2⟩ := idxX t
  rw [if_pos ht] at e1
  unfold iblk
  rw [View.read_apply]
  show V m c main_arg0 _ = V m c main_arg0 _
  congr 1
  funext a
  apply Fin.ext
  match a with
  | ⟨0, _⟩ => show win0_1.index t (0 : Fin 3) * 4 + 1 * b.val = b.val; rw [e0]; omega
  | ⟨1, _⟩ => show win0_1.index t (1 : Fin 3) * 2048 + 1 * k.val = q.val; rw [e1, hq]; omega
  | ⟨2, _⟩ => show win0_1.index t (2 : Fin 3) * 256 + 1 * d.val = d.val; rw [e2]; omega

/-- The staged half of `x` at any later point, entry [b, k, d], is `x[b, 2048 + k, d]`: the second half. -/
theorem iblkX_pos_apply (c : Dev nD) (t : Fin cfg0.N) (ht : t.val ≠ 0) (b : Fin 4) (k : Fin 2048) (d : Fin 256) (q : Fin 4096)
    (hq : q.val = 2048 + k.val) :
    (iblk m c 1 t : Vec F S4x2048x256 .f32) (ix3 b k d) = V m c main_arg0 (ix3 b q d) := by
  obtain ⟨e0, e1, e2⟩ := idxX t
  rw [if_neg ht] at e1
  unfold iblk
  rw [View.read_apply]
  show V m c main_arg0 _ = V m c main_arg0 _
  congr 1
  funext a
  apply Fin.ext
  match a with
  | ⟨0, _⟩ => show win0_1.index t (0 : Fin 3) * 4 + 1 * b.val = b.val; rw [e0]; omega
  | ⟨1, _⟩ => show win0_1.index t (1 : Fin 3) * 2048 + 1 * k.val = q.val; rw [e1, hq]; omega
  | ⟨2, _⟩ => show win0_1.index t (2 : Fin 3) * 256 + 1 * d.val = d.val; rw [e2]; omega

/-! ## Four slab stores read back -/

section Slabs

variable {Val : EltTy → Type} [∀ e, Nonempty (Val e)]

/-- Slab `o`'s rectangle sends its entry [u, r, d] to entry [o + u, r, d] of the block. -/
theorem slab_emb (o : Nat) (inb : ∀ a, (![o, 0, 0] : Fin 3 → Nat) a + S1x512x256.size a ≤ S4x512x256.size a)
    (b : Fin 4) (hb : b.val = o) (r : Fin 512) (d : Fin 256) :
    (Rect.unit (s := S4x512x256) ![o, 0, 0] S1x512x256.size inb).emb (ix3 (0 : Fin 1) r d) = ix3 b r d := by
  funext a
  apply Fin.ext
  match a with
  | ⟨0, _⟩ => show o + 1 * 0 = b.val; omega
  | ⟨1, _⟩ => show 0 + 1 * r.val = r.val; omega
  | ⟨2, _⟩ => show 0 + 1 * d.val = d.val; omega

/-- An entry of another slab is not in slab `o`'s rectangle. -/
theorem slab_not_mem (o : Nat) (inb : ∀ a, (![o, 0, 0] : Fin 3 → Nat) a + S1x512x256.size a ≤ S4x512x256.size a)
    (b : Fin 4) (hb : b.val ≠ o) (r : Fin 512) (d : Fin 256) :
    ix3 b r d ∉ (Rect.unit (s := S4x512x256) ![o, 0, 0] S1x512x256.size inb).set := by
  rw [Rect.mem_set_unit]
  intro h
  have h0 := h (0 : Fin 3)
  have e : ((ix3 b r d : S4x512x256.Idx) (0 : Fin 3)).val = b.val := rfl
  have h1 : o ≤ b.val ∧ b.val < o + 1 := h0
  omega

/-- A store of slab `o` on top of earlier stores does not change an entry of another slab. -/
theorem canon_skip (o : Nat) (inb : ∀ a, (![o, 0, 0] : Fin 3 → Nat) a + S1x512x256.size a ≤ S4x512x256.size a)
    (w : S1x512x256.Idx → Val .f32) (L : List (View.Piece Val S4x512x256 .f32)) (b : Fin 4) (hb : b.val ≠ o) (r : Fin 512) (d : Fin 256) :
    View.canon ((⟨Rect.unit (s := S4x512x256) ![o, 0, 0] S1x512x256.size inb, w⟩ : View.Piece Val S4x512x256 .f32) :: L) (ix3 b r d)
      = View.canon L (ix3 b r d) :=
  View.canon_cons_of_not_mem (⟨Rect.unit (s := S4x512x256) ![o, 0, 0] S1x512x256.size inb, w⟩ : View.Piece Val S4x512x256 .f32) L
    (slab_not_mem o inb b hb r d)

/-- A store of slab `o` on top of earlier stores leaves its payload on the slab's own entries. -/
theorem canon_hit (o : Nat) (inb : ∀ a, (![o, 0, 0] : Fin 3 → Nat) a + S1x512x256.size a ≤ S4x512x256.size a)
    (w : S1x512x256.Idx → Val .f32) (L : List (View.Piece Val S4x512x256 .f32)) (b : Fin 4) (hb : b.val = o) (r : Fin 512) (d : Fin 256) :
    View.canon ((⟨Rect.unit (s := S4x512x256) ![o, 0, 0] S1x512x256.size inb, w⟩ : View.Piece Val S4x512x256 .f32) :: L) (ix3 b r d)
      = w (ix3 (0 : Fin 1) r d) :=
  (congrArg (View.canon ((⟨Rect.unit (s := S4x512x256) ![o, 0, 0] S1x512x256.size inb, w⟩ : View.Piece Val S4x512x256 .f32) :: L))
    (slab_emb o inb b hb r d).symm).trans
    (View.canon_cons_emb (Rect.unit (s := S4x512x256) ![o, 0, 0] S1x512x256.size inb) w L (ix3 (0 : Fin 1) r d))

/-- After four slab stores at offsets 0, 1, 2, 3 (the last first in the list), entry [b, r, d] of the block is entry
    [0, r, d] of the slab stored at offset `b`: here `b = 0`, -/
theorem canon_slab0 (inb0 inb1 inb2 inb3) (w0 w1 w2 w3 : S1x512x256.Idx → Val .f32) (b : Fin 4) (hb : b.val = 0) (r : Fin 512) (d : Fin 256) :
    View.canon (Val := Val) [(⟨Rect.unit (s := S4x512x256) ![3, 0, 0] S1x512x256.size inb3, w3⟩ : View.Piece Val S4x512x256 .f32),
        ⟨Rect.unit (s := S4x512x256) ![2, 0, 0] S1x512x256.size inb2, w2⟩,
        ⟨Rect.unit (s := S4x512x256) ![1, 0, 0] S1x512x256.size inb1, w1⟩,
        ⟨Rect.unit (s := S4x512x256) ![0, 0, 0] S1x512x256.size inb0, w0⟩] (ix3 b r d) = w0 (ix3 (0 : Fin 1) r d) :=
  (canon_skip 3 inb3 w3 _ b (by rw [hb]; decide) r d).trans ((canon_skip 2 inb2 w2 _ b (by rw [hb]; decide) r d).trans
    ((canon_skip 1 inb1 w1 _ b (by rw [hb]; decide) r d).trans (canon_hit 0 inb0 w0 [] b hb r d)))

/-- here `b = 1`, -/
theorem canon_slab1 (inb0 inb1 inb2 inb3) (w0 w1 w2 w3 : S1x512x256.Idx → Val .f32) (b : Fin 4) (hb : b.val = 1) (r : Fin 512) (d : Fin 256) :
    View.canon (Val := Val) [(⟨Rect.unit (s := S4x512x256) ![3, 0, 0] S1x512x256.size inb3, w3⟩ : View.Piece Val S4x512x256 .f32),
        ⟨Rect.unit (s := S4x512x256) ![2, 0, 0] S1x512x256.size inb2, w2⟩,
        ⟨Rect.unit (s := S4x512x256) ![1, 0, 0] S1x512x256.size inb1, w1⟩,
        ⟨Rect.unit (s := S4x512x256) ![0, 0, 0] S1x512x256.size inb0, w0⟩] (ix3 b r d) = w1 (ix3 (0 : Fin 1) r d) :=
  (canon_skip 3 inb3 w3 _ b (by rw [hb]; decide) r d).trans ((canon_skip 2 inb2 w2 _ b (by rw [hb]; decide) r d).trans
    (canon_hit 1 inb1 w1 _ b hb r d))

/-- here `b = 2`, -/
theorem canon_slab2 (inb0 inb1 inb2 inb3) (w0 w1 w2 w3 : S1x512x256.Idx → Val .f32) (b : Fin 4) (hb : b.val = 2) (r : Fin 512) (d : Fin 256) :
    View.canon (Val := Val) [(⟨Rect.unit (s := S4x512x256) ![3, 0, 0] S1x512x256.size inb3, w3⟩ : View.Piece Val S4x512x256 .f32),
        ⟨Rect.unit (s := S4x512x256) ![2, 0, 0] S1x512x256.size inb2, w2⟩,
        ⟨Rect.unit (s := S4x512x256) ![1, 0, 0] S1x512x256.size inb1, w1⟩,
        ⟨Rect.unit (s := S4x512x256) ![0, 0, 0] S1x512x256.size inb0, w0⟩] (ix3 b r d) = w2 (ix3 (0 : Fin 1) r d) :=
  (canon_skip 3 inb3 w3 _ b (by rw [hb]; decide) r d).trans (canon_hit 2 inb2 w2 _ b hb r d)

/-- and here `b = 3`. -/
theorem canon_slab3 (inb0 inb1 inb2 inb3) (w0 w1 w2 w3 : S1x512x256.Idx → Val .f32) (b : Fin 4) (hb : b.val = 3) (r : Fin 512) (d : Fin 256) :
    View.canon (Val := Val) [(⟨Rect.unit (s := S4x512x256) ![3, 0, 0] S1x512x256.size inb3, w3⟩ : View.Piece Val S4x512x256 .f32),
        ⟨Rect.unit (s := S4x512x256) ![2, 0, 0] S1x512x256.size inb2, w2⟩,
        ⟨Rect.unit (s := S4x512x256) ![1, 0, 0] S1x512x256.size inb1, w1⟩,
        ⟨Rect.unit (s := S4x512x256) ![0, 0, 0] S1x512x256.size inb0, w0⟩] (ix3 b r d) = w3 (ix3 (0 : Fin 1) r d) :=
  canon_hit 3 inb3 w3 _ b hb r d

end Slabs

end Cert.KernelIdeal.Val

end
-- ==== Proof.KernelIdeal.CaseValues.lean ====
/-
  What each case of the projection kernel's body leaves, read at an index over the extended reals. With `a` the
  staged block of the matrix, `x` the staged half of the batch and `s` the scratch:
    at point 0 the scratch ends holding `x`, and the output block `[b, r, d] ↦ Σ_k a[r, k] · x[b, k, d]`;
    at another even point the output block ends holding `[b, r, d] ↦ Σ_k a[r, k] · s[b, k, d]`;
    at an odd point, the block holding `o` before, it ends holding `[b, r, d] ↦ o[b, r, d] + Σ_k a[r, k] · x[b, k, d]`.
  Each is read off the case's four slab stores: entry [b, r, d] comes from the store at offset `b`, whose loads read
  the whole block of the matrix and slab `b` of the other buffers.
-/
import proofs.«143561_g21036749816194_cont_8to1_1761_21_alg».proof.Proof.KernelIdeal.Body
import proofs.«143561_g21036749816194_cont_8to1_1761_21_alg».proof.Proof.KernelIdeal.Payloads
import proofs.«143561_g21036749816194_cont_8to1_1761_21_alg».proof.Proof.KernelIdeal.Blocks

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Loads

variable {F : FTy → Type} [FloatOps F]

/-- A load of the whole staged block of the matrix reads its contents. -/
theorem loadP (arg : Memref sig .tc .vmem S512x2048 .f32) (harg : arg.IsWhole) (inb) (x0 : Vec F S512x2048 .f32) (j : S512x2048.Idx) :
    View.readAt (Elt F) arg.view (Rect.unit (s := S512x2048) ![0, 0] S512x2048.size inb).toLoadRect (harg.unread x0) j = x0 j := by
  rw [View.readAt_eq_ld, harg.read_unread, View.ld_unit_zero hz2]

/-- A load of the whole staged half of the batch reads its contents. -/
theorem loadXwhole (arg : Memref sig .tc .vmem S4x2048x256 .f32) (harg : arg.IsWhole) (inb) (x1 : Vec F S4x2048x256 .f32) :
    View.readAt (Elt F) arg.view (Rect.unit (s := S4x2048x256) ![0, 0, 0] S4x2048x256.size inb).toLoadRect (harg.unread x1) = x1 := by
  rw [View.readAt_eq_ld, harg.read_unread, View.ld_unit_zero hz3]

/-- Slab `o`'s rectangle in a [4, 2048, 256] buffer sends its entry [0, k, d] to entry [o, k, d]. -/
theorem slabX_emb (o : Nat) (inb : ∀ a, (![o, 0, 0] : Fin 3 → Nat) a + S1x2048x256.size a ≤ S4x2048x256.size a)
    (b : Fin 4) (hb : b.val = o) (k : Fin 2048) (d : Fin 256) :
    (Rect.unit (s := S4x2048x256) ![o, 0, 0] S1x2048x256.size inb).emb (ix3 (0 : Fin 1) k d) = ix3 b k d := by
  funext a
  apply Fin.ext
  match a with
  | ⟨0, _⟩ => show o + 1 * 0 = b.val; omega
  | ⟨1, _⟩ => show 0 + 1 * k.val = k.val; omega
  | ⟨2, _⟩ => show 0 + 1 * d.val = d.val; omega

/-- A load of slab `o` of a [4, 2048, 256] buffer reads entry [o, k, d] at [0, k, d]. -/
theorem loadSlabX (arg : Memref sig .tc .vmem S4x2048x256 .f32) (harg : arg.IsWhole) (xs : Vec F S4x2048x256 .f32) (o : Nat)
    (inb : ∀ a, (![o, 0, 0] : Fin 3 → Nat) a + S1x2048x256.size a ≤ S4x2048x256.size a) (b : Fin 4) (hb : b.val = o) (k : Fin 2048) (d : Fin 256) :
    View.readAt (Elt F) arg.view (Rect.unit (s := S4x2048x256) ![o, 0, 0] S1x2048x256.size inb).toLoadRect (harg.unread xs) (ix3 (0 : Fin 1) k d)
      = xs (ix3 b k d) := by
  rw [View.readAt_eq_ld, harg.read_unread]
  exact congrArg xs (slabX_emb o inb b hb k d)

/-- A load of slab `o` of the output block reads entry [o, r, d] at [0, r, d]. -/
theorem loadSlabO (arg : Memref sig .tc .vmem S4x512x256 .f32) (harg : arg.IsWhole) (xo : Vec F S4x512x256 .f32) (o : Nat)
    (inb : ∀ a, (![o, 0, 0] : Fin 3 → Nat) a + S1x512x256.size a ≤ S4x512x256.size a) (b : Fin 4) (hb : b.val = o) (r : Fin 512) (d : Fin 256) :
    View.readAt (Elt F) arg.view (Rect.unit (s := S4x512x256) ![o, 0, 0] S1x512x256.size inb).toLoadRect (harg.unread xo) (ix3 (0 : Fin 1) r d)
      = xo (ix3 b r d) := by
  rw [View.readAt_eq_ld, harg.read_unread]
  exact congrArg xo (slab_emb o inb b hb r d)

end Loads

/-- A load of slab `o` of a [4, 2048, 256] buffer that one whole store has just filled with `w` reads `w` at [o, k, d]. -/
theorem readCov_whole_slab (arg5 : Memref sig .tc .vmem S4x2048x256 .f32)
    (inb0 : ∀ a, (![0, 0, 0] : Fin 3 → Nat) a + S4x2048x256.size a ≤ S4x2048x256.size a) (w : Vec Ideal S4x2048x256 .f32) (o : Nat)
    (inb : ∀ a, (![o, 0, 0] : Fin 3 → Nat) a + S1x2048x256.size a ≤ S4x2048x256.size a) (b : Fin 4) (hb : b.val = o) (k : Fin 2048) (d : Fin 256) :
    arg5.view.readCov [(⟨Rect.unit (s := S4x2048x256) ![0, 0, 0] S4x2048x256.size inb0, w⟩ : View.Piece (Elt Ideal) S4x2048x256 .f32)]
      (Rect.unit (s := S4x2048x256) ![o, 0, 0] S1x2048x256.size inb).toLoadRect (ix3 (0 : Fin 1) k d) = w (ix3 b k d) := by
  have hcov : ∀ y : S4x2048x256.Idx, ∃ p ∈ [(⟨Rect.unit (s := S4x2048x256) ![0, 0, 0] S4x2048x256.size inb0, w⟩ : View.Piece (Elt Ideal) S4x2048x256 .f32)], y ∈ p.1.set :=
    fun y => ⟨(⟨Rect.unit (s := S4x2048x256) ![0, 0, 0] S4x2048x256.size inb0, w⟩ : View.Piece (Elt Ideal) S4x2048x256 .f32),
      List.mem_singleton_self _, View.mem_set_unit_zero hz3 inb0 y⟩
  rw [View.readCov_eq_canon_ld arg5.view _ (Rect.unit (s := S4x2048x256) ![o, 0, 0] S1x2048x256.size inb) hcov, View.canon_unit_zero hz3]
  exact congrArg w (slabX_emb o inb b hb k d)

/-- A load of slab `o` of the scratch right after the copy reads the copied half at [o, k, d]. -/
theorem loadCopied (arg3 arg5 : Memref sig .tc .vmem S4x2048x256 .f32) (harg3 : arg3.IsWhole) (inb0 inb0') (x1 : Vec Ideal S4x2048x256 .f32) (o : Nat)
    (inb : ∀ a, (![o, 0, 0] : Fin 3 → Nat) a + S1x2048x256.size a ≤ S4x2048x256.size a) (b : Fin 4) (hb : b.val = o) (k : Fin 2048) (d : Fin 256) :
    arg5.view.readCov [(⟨Rect.unit (s := S4x2048x256) ![0, 0, 0] S4x2048x256.size inb0,
        k0_pay1 (F := Ideal) (View.readAt (Elt Ideal) arg3.view (Rect.unit (s := S4x2048x256) ![0, 0, 0] S4x2048x256.size inb0').toLoadRect (harg3.unread x1))⟩ : View.Piece (Elt Ideal) S4x2048x256 .f32)]
      (Rect.unit (s := S4x2048x256) ![o, 0, 0] S1x2048x256.size inb).toLoadRect (ix3 (0 : Fin 1) k d) = x1 (ix3 b k d) :=
  (readCov_whole_slab arg5 inb0 _ o inb b hb k d).trans
    (congrFun ((pay1_eq _).trans (loadXwhole arg3 harg3 inb0' x1)) (ix3 b k d))

theorem fin4_cases (b : Fin 4) : b.val = 0 ∨ b.val = 1 ∨ b.val = 2 ∨ b.val = 3 := by have := b.isLt; omega

/-! ## The four cases' contents -/

/-- After point 0 the scratch holds the staged half of the batch. -/
theorem scrFirst_eq (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec Ideal S512x2048 .f32) (x1 : Vec Ideal S4x2048x256 .f32) :
    scrFirst (F := Ideal) c i arg2 harg2 arg3 harg3 arg4 harg4 arg5 harg5 hc0 hc1 hc2 x0 x1 = x1 := by
  unfold scrFirst runFirst
  dsimp only
  sl_unfold_words
  rw [View.canon_unit_zero hz3, pay1_eq]
  exact loadXwhole arg3 harg3 _ x1

/-- After point 0 the output block holds the products with the staged half of the batch. -/
theorem outFirst_apply (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : isFirst i) (hc1 : isHalf0 i) (hc2 : ¬isHalf1 i)
    (x0 : Vec Ideal S512x2048 .f32) (x1 : Vec Ideal S4x2048x256 .f32) (b : Fin 4) (r : Fin 512) (d : Fin 256) :
    outFirst (F := Ideal) c i arg2 harg2 arg3 harg3 arg4 harg4 arg5 harg5 hc0 hc1 hc2 x0 x1 (ix3 b r d) = ∑ k : Fin 2048, x0 (ix2 r k) * x1 (ix3 b k d) := by
  unfold outFirst runFirst
  dsimp only
  sl_unfold_words
  rcases fin4_cases b with hb | hb | hb | hb
  · refine (canon_slab0 _ _ _ _ _ _ _ _ b hb r d).trans ((pay2_apply _ _ _).trans ?_)
    exact Finset.sum_congr rfl fun k _ => congrArg₂ (· * ·) (loadP arg2 harg2 _ x0 _) (loadCopied arg3 arg5 harg3 _ _ x1 0 _ b hb k d)
  · refine (canon_slab1 _ _ _ _ _ _ _ _ b hb r d).trans ((pay3_apply _ _ _).trans ?_)
    exact Finset.sum_congr rfl fun k _ => congrArg₂ (· * ·) (loadP arg2 harg2 _ x0 _) (loadCopied arg3 arg5 harg3 _ _ x1 1 _ b hb k d)
  · refine (canon_slab2 _ _ _ _ _ _ _ _ b hb r d).trans ((pay4_apply _ _ _).trans ?_)
    exact Finset.sum_congr rfl fun k _ => congrArg₂ (· * ·) (loadP arg2 harg2 _ x0 _) (loadCopied arg3 arg5 harg3 _ _ x1 2 _ b hb k d)
  · refine (canon_slab3 _ _ _ _ _ _ _ _ b hb r d).trans ((pay5_apply _ _ _).trans ?_)
    exact Finset.sum_congr rfl fun k _ => congrArg₂ (· * ·) (loadP arg2 harg2 _ x0 _) (loadCopied arg3 arg5 harg3 _ _ x1 3 _ b hb k d)

/-- After an even point other than 0 the output block holds the products with the scratch. -/
theorem outEven_apply (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : isHalf0 i) (hc2 : ¬isHalf1 i)
    (x0 : Vec Ideal S512x2048 .f32) (x1 : Vec Ideal S4x2048x256 .f32) (xs : Vec Ideal S4x2048x256 .f32) (b : Fin 4) (r : Fin 512) (d : Fin 256) :
    outEven (F := Ideal) c i arg2 harg2 arg3 harg3 arg4 harg4 arg5 harg5 hc0 hc1 hc2 x0 x1 xs (ix3 b r d) = ∑ k : Fin 2048, x0 (ix2 r k) * xs (ix3 b k d) := by
  unfold outEven runEven
  dsimp only
  rcases fin4_cases b with hb | hb | hb | hb
  · refine (canon_slab0 _ _ _ _ _ _ _ _ b hb r d).trans ((pay2_apply _ _ _).trans ?_)
    exact Finset.sum_congr rfl fun k _ => congrArg₂ (· * ·) (loadP arg2 harg2 _ x0 _) (loadSlabX arg5 harg5 xs 0 _ b hb k d)
  · refine (canon_slab1 _ _ _ _ _ _ _ _ b hb r d).trans ((pay3_apply _ _ _).trans ?_)
    exact Finset.sum_congr rfl fun k _ => congrArg₂ (· * ·) (loadP arg2 harg2 _ x0 _) (loadSlabX arg5 harg5 xs 1 _ b hb k d)
  · refine (canon_slab2 _ _ _ _ _ _ _ _ b hb r d).trans ((pay4_apply _ _ _).trans ?_)
    exact Finset.sum_congr rfl fun k _ => congrArg₂ (· * ·) (loadP arg2 harg2 _ x0 _) (loadSlabX arg5 harg5 xs 2 _ b hb k d)
  · refine (canon_slab3 _ _ _ _ _ _ _ _ b hb r d).trans ((pay5_apply _ _ _).trans ?_)
    exact Finset.sum_congr rfl fun k _ => congrArg₂ (· * ·) (loadP arg2 harg2 _ x0 _) (loadSlabX arg5 harg5 xs 3 _ b hb k d)

/-- After an odd point the output block holds what it held plus the products with the staged half of the batch. -/
theorem outOdd_apply (c : Dev nD) (i : grid0.Coords) (arg2 : Memref sig .tc .vmem S512x2048 .f32) (harg2 : arg2.IsWhole) (arg3 : Memref sig .tc .vmem S4x2048x256 .f32) (harg3 : arg3.IsWhole) (arg4 : Memref sig .tc .vmem S4x512x256 .f32) (harg4 : arg4.IsWhole) (arg5 : Memref sig .tc .vmem S4x2048x256 .f32) (harg5 : arg5.IsWhole) (hc0 : ¬isFirst i) (hc1 : ¬isHalf0 i) (hc2 : isHalf1 i)
    (x0 : Vec Ideal S512x2048 .f32) (x1 : Vec Ideal S4x2048x256 .f32) (xo : Vec Ideal S4x512x256 .f32) (xs : Vec Ideal S4x2048x256 .f32)
    (b : Fin 4) (r : Fin 512) (d : Fin 256) :
    outOdd (F := Ideal) c i arg2 harg2 arg3 harg3 arg4 harg4 arg5 harg5 hc0 hc1 hc2 x0 x1 xo xs (ix3 b r d)
      = xo (ix3 b r d) + ∑ k : Fin 2048, x0 (ix2 r k) * x1 (ix3 b k d) := by
  unfold outOdd runOdd
  dsimp only
  sl_unfold_words
  rcases fin4_cases b with hb | hb | hb | hb
  · refine (canon_slab0 _ _ _ _ _ _ _ _ b hb r d).trans ((pay8_apply _ _ _ _).trans ?_)
    exact congrArg₂ (· + ·) (loadSlabO arg4 harg4 xo 0 _ b hb r d)
      (Finset.sum_congr rfl fun k _ => congrArg₂ (· * ·) (loadP arg2 harg2 _ x0 _) (loadSlabX arg3 harg3 x1 0 _ b hb k d))
  · refine (canon_slab1 _ _ _ _ _ _ _ _ b hb r d).trans ((pay9_apply _ _ _ _).trans ?_)
    exact congrArg₂ (· + ·) (loadSlabO arg4 harg4 xo 1 _ b hb r d)
      (Finset.sum_congr rfl fun k _ => congrArg₂ (· * ·) (loadP arg2 harg2 _ x0 _) (loadSlabX arg3 harg3 x1 1 _ b hb k d))
  · refine (canon_slab2 _ _ _ _ _ _ _ _ b hb r d).trans ((pay6_apply _ _ _ _).trans ?_)
    exact congrArg₂ (· + ·) (loadSlabO arg4 harg4 xo 2 _ b hb r d)
      (Finset.sum_congr rfl fun k _ => congrArg₂ (· * ·) (loadP arg2 harg2 _ x0 _) (loadSlabX arg3 harg3 x1 2 _ b hb k d))
  · refine (canon_slab3 _ _ _ _ _ _ _ _ b hb r d).trans ((pay7_apply _ _ _ _).trans ?_)
    exact congrArg₂ (· + ·) (loadSlabO arg4 harg4 xo 3 _ b hb r d)
      (Finset.sum_congr rfl fun k _ => congrArg₂ (· * ·) (loadP arg2 harg2 _ x0 _) (loadSlabX arg3 harg3 x1 3 _ b hb k d))

end Cert.KernelIdeal.Val

end
-- ==== Proof.Spec.lean ====
/-
  The specification of the projection: every batch slab of `x` is multiplied on the left by the one matrix `p`,
  `out[b, n, d] = Σ_k p[n, k] · x[b, k, d]`, over the extended reals, `k` ranging over all 4096 columns of `p`.
  Also the one law the blocked kernel needs: a sum over 4096 columns is the sum over the first 2048 plus the sum
  over the last 2048, each started from zero. Addition on the extended reals is commutative and associative
  (only cancellation and distributivity fail at the infinities), so no finiteness is used.
-/
import Idealize.ShloMosaic.PureOps.Ideal
import Idealize.ShloMosaic.Lib.ValueIdx

noncomputable section

namespace Cert.Spec

open Idealize.ShloMosaic Idealize.ShloMosaic.ValueIdx

/-- The batch of column blocks: 4 slabs of 4096 rows and 256 columns. -/
abbrev SX : Shape := ⟨3, ![4, 4096, 256]⟩
/-- The projection matrix: 4096 by 4096. -/
abbrev SP : Shape := ⟨2, ![4096, 4096]⟩

/-- `proj x p [b, n, d] = Σ_k p[n, k] · x[b, k, d]`: slab `b` of `x` multiplied on the left by `p`. -/
def proj (x : SX.Idx → EReal) (p : SP.Idx → EReal) : SX.Idx → EReal :=
  fun i => ∑ k : Fin 4096, p (ix2 (i 1) k) * x (ix3 (i 0) k (i 2))

theorem proj_apply (x : SX.Idx → EReal) (p : SP.Idx → EReal) (b : Fin 4) (n : Fin 4096) (d : Fin 256) :
    proj x p (ix3 b n d) = ∑ k : Fin 4096, p (ix2 n k) * x (ix3 b k d) := rfl

/-- A sum over 4096 positions is the sum over the first 2048 plus the sum over the last 2048, each taken from zero:
    in any additive commutative monoid. -/
theorem sum_halves {M : Type*} [AddCommMonoid M] (f : Fin 4096 → M) :
    ∑ k : Fin 4096, f k
      = (0 + ∑ j : Fin 2048, f ⟨j.val, by have := j.isLt; omega⟩)
        + (0 + ∑ j : Fin 2048, f ⟨2048 + j.val, by have := j.isLt; omega⟩) := by
  rw [zero_add, zero_add]
  exact Fin.sum_univ_add (a := 2048) (b := 2048) f

end Cert.Spec

end
-- ==== Proof.KernelIdeal.PointValues.lean ====
/-
  The projection kernel's result array, over the extended reals. After an even point (row block `i`, first half) the
  output block holds `[b, r, d] ↦ Σ_{k<2048} p[512 i + r, k] · x[b, k, d]`: the scratch holds the first half of the
  batch from point 0 on. The odd point after it adds `Σ_{k<2048} p[512 i + r, 2048 + k] · x[b, 2048 + k, d]`, and the
  two half sums are the sum over all 4096 columns. So what an odd point writes back is rows `512 i …` of the
  projection; the eight odd points' blocks cover the array (row `n` is in the block of point `2 (n / 512) + 1`); hence
  the result array ends holding the projection of the argument arrays, index by index.
-/
import proofs.«143561_g21036749816194_cont_8to1_1761_21_alg».proof.Proof.KernelIdeal.CaseValues
import proofs.«143561_g21036749816194_cont_8to1_1761_21_alg».proof.Proof.Spec

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The staged block of the matrix at point `t`, -/
abbrev blkP (c : Dev nD) (t : Fin cfg0.N) : Vec Ideal S512x2048 .f32 := iblk m c 0 t
/-- the staged half of the batch at point `t`, -/
abbrev blkX (c : Dev nD) (t : Fin cfg0.N) : Vec Ideal S4x2048x256 .f32 := iblk m c 1 t
/-- the batch as the region finds it, -/
abbrev arrX (c : Dev nD) : Vec Ideal S4x4096x256 .f32 := V m c main_arg0
/-- and the matrix as the region finds it. -/
abbrev arrP (c : Dev nD) : Vec Ideal S4096x4096 .f32 := V m c main_arg1

/-- From point 0 on the scratch holds the staged half of the batch at point 0. -/
theorem scr0_eq (c : Dev nD) : scr0 m c = blkX m c p0 := by
  unfold scr0
  exact scrFirst_eq c (grid0.coords p0) (mP p0) (hP p0) (mX p0) (hX p0) (mO p0) (hO p0) mS (Memref.isWhole_whole _) first_p0 half0_p0 not_half1_p0 (iblk m c 0 p0) (iblk m c 1 p0)

/-- After an even point: the products of the point's block of the matrix with the half of the batch staged at point 0. -/
theorem outAt_even_apply (c : Dev nD) (t : Fin cfg0.N) (h : t.val % 2 = 0) (b : Fin 4) (r : Fin 512) (d : Fin 256) :
    outAt m c t.val t.isLt (ix3 b r d)
      = ∑ k : Fin 2048, blkP m c t (ix2 r k) * blkX m c p0 (ix3 b k d) := by
  by_cases hz : t.val = 0
  · obtain rfl : t = p0 := Fin.ext hz
    rw [outAt_zero m c]
    exact outFirst_apply c (grid0.coords p0) (mP p0) (hP p0) (mX p0) (hX p0) (mO p0) (hO p0) mS (Memref.isWhole_whole _) first_p0 half0_p0 not_half1_p0 (iblk m c 0 p0) (iblk m c 1 p0) b r d
  · rw [outAt_even m c t hz h, scr0_eq m c]
    exact outEven_apply c (grid0.coords t) (mP t) (hP t) (mX t) (hX t) (mO t) (hO t) mS (Memref.isWhole_whole _) (not_first_of_pos t hz) (half0_of_even t h) (not_half1_of_even t h)
      (iblk m c 0 t) (iblk m c 1 t) (iblk m c 1 p0) b r d

/-- After an odd point: what the point before left, plus the products with the half of the batch staged at the point. -/
theorem outAt_odd_apply (c : Dev nD) (t : Fin cfg0.N) (h : ¬t.val % 2 = 0) (b : Fin 4) (r : Fin 512) (d : Fin 256) :
    outAt m c t.val t.isLt (ix3 b r d)
      = outAt m c (t.val - 1) (Nat.lt_of_le_of_lt (Nat.sub_le _ _) t.isLt) (ix3 b r d)
        + ∑ k : Fin 2048, blkP m c t (ix2 r k) * blkX m c t (ix3 b k d) := by
  rw [outAt_odd m c t h]
  exact outOdd_apply c (grid0.coords t) (mP t) (hP t) (mX t) (hX t) (mO t) (hO t) mS (Memref.isWhole_whole _) (not_first_of_pos t (fun hz => h (by rw [hz]))) (not_half0_of_odd t h) (half1_of_odd t h)
    (iblk m c 0 t) (iblk m c 1 t) (outAt m c (t.val - 1) (Nat.lt_of_le_of_lt (Nat.sub_le _ _) t.isLt)) (scr0 m c) b r d

/-- After an odd point (row block `t / 2`) the output block holds rows `512 (t / 2) …` of the projection. -/
theorem out_odd_is_proj (c : Dev nD) (t : Fin cfg0.N) (h : t.val % 2 = 1) (b : Fin 4) (r : Fin 512) (d : Fin 256) (n : Fin 4096)
    (hn : n.val = 512 * (t.val / 2) + r.val) :
    outAt m c t.val t.isLt (ix3 b r d) = Cert.Spec.proj (arrX m c) (arrP m c) (ix3 b n d) := by
  have hN : t.val < 16 := lt_of_lt_of_eq t.isLt (show cfg0.N = 16 from N_0)
  have hodd : ¬t.val % 2 = 0 := by omega
  have ht' : (⟨t.val - 1, Nat.lt_of_le_of_lt (Nat.sub_le _ _) t.isLt⟩ : Fin cfg0.N).val % 2 = 0 := by
    show (t.val - 1) % 2 = 0; omega
  rw [outAt_odd_apply m c t hodd b r d]
  rw [outAt_even_apply m c ⟨t.val - 1, Nat.lt_of_le_of_lt (Nat.sub_le _ _) t.isLt⟩ ht' b r d]
  rw [Cert.Spec.proj_apply]
  refine Eq.trans ?_ (Cert.Spec.sum_halves (fun k : Fin 4096 => arrP m c (ix2 n k) * arrX m c (ix3 b k d))).symm
  rw [zero_add, zero_add]
  have hr := r.isLt
  refine congrArg₂ (· + ·) (Finset.sum_congr rfl fun k _ => ?_) (Finset.sum_congr rfl fun k _ => ?_)
  · have hk := k.isLt
    exact congrArg₂ (· * ·)
      (iblkP_apply m c ⟨t.val - 1, Nat.lt_of_le_of_lt (Nat.sub_le _ _) t.isLt⟩ r k n ⟨k.val, by omega⟩
        (by show n.val = 512 * ((t.val - 1) / 2) + r.val; omega) (by show k.val = 2048 * ((t.val - 1) % 2) + k.val; omega))
      (iblkX_zero_apply m c p0 rfl b k d ⟨k.val, by omega⟩ rfl)
  · have hk := k.isLt
    exact congrArg₂ (· * ·)
      (iblkP_apply m c t r k n ⟨2048 + k.val, by omega⟩ hn (by show 2048 + k.val = 2048 * (t.val % 2) + k.val; omega))
      (iblkX_pos_apply m c t (by omega) b k d ⟨2048 + k.val, by omega⟩ rfl)

/-! ## From blocks to the array -/

/-- What an odd point writes back is its block of the projection of the argument arrays. -/
theorem flushed_eq (c : Dev nD) (t : Fin cfg0.N) (hf : (cfg0.win 2).flush t = true) :
    (dats m 0 c).flushed 2 t = ((cfg0.win 2).blk t).view.read (Elt Ideal) (Cert.Spec.proj (arrX m c) (arrP m c)) := by
  have hodd : t.val % 2 = 1 := (flush0_2 t).mp hf
  have hN : t.val < 16 := lt_of_lt_of_eq t.isLt (show cfg0.N = 16 from N_0)
  obtain ⟨e0, e1, e2⟩ := idxO t
  show (cfg0.win 2).cut (grid0.coords t) ((dats m 0 c).after 2 t) = _
  rw [after2]
  refine funext fun (j : S4x512x256.Idx) => ?_
  obtain ⟨b, r, d, rfl⟩ : ∃ (b : Fin 4) (r : Fin 512) (d : Fin 256), j = ix3 b r d := ⟨j 0, j 1, j 2, eq_ix3 j⟩
  have hr := r.isLt
  rw [View.read_apply]
  refine (out_odd_is_proj m c t hodd b r d ⟨512 * (t.val / 2) + r.val, by omega⟩ rfl).trans ?_
  congr 1
  funext a
  apply Fin.ext
  match a with
  | ⟨0, _⟩ => show b.val = win0_2.index t (0 : Fin 3) * 4 + 1 * b.val; rw [e0]; omega
  | ⟨1, _⟩ => show 512 * (t.val / 2) + r.val = win0_2.index t (1 : Fin 3) * 512 + 1 * r.val; rw [e1]; omega
  | ⟨2, _⟩ => show d.val = win0_2.index t (2 : Fin 3) * 256 + 1 * d.val; rw [e2]; omega

/-- An index of the array is in point `t`'s block iff each coordinate is in the block's range on its axis. -/
theorem mem_blkO (t : Fin cfg0.N) (i : S4x4096x256.Idx) :
    i ∈ ((cfg0.win 2).blk t).view.set ↔ ∀ a : Fin 3, win0_2.index t a * S4x512x256.size a ≤ (i a).val ∧ (i a).val < win0_2.index t a * S4x512x256.size a + S4x512x256.size a := by
  show i ∈ ((View.whole main_v0).slice (win0_2.rect t)).set ↔ _
  rw [View.set_slice_whole, Rect.mem_set_unit]
  exact Iff.rfl

/-- Every index of the result array is in the block some odd point writes back: row `n` in that of point `2 (n / 512) + 1`. -/
theorem covered (i : S4x4096x256.Idx) :
    ∃ t : Fin cfg0.N, (cfg0.win 2).flush t = true ∧ i ∈ ((cfg0.win 2).blk t).view.set := by
  have h0 : (i 0).val < 4 := (i 0).isLt
  have h1 : (i 1).val < 4096 := (i 1).isLt
  have h2 : (i 2).val < 256 := (i 2).isLt
  have hlt : 2 * ((i 1).val / 512) + 1 < cfg0.N := by rw [show cfg0.N = 16 from N_0]; omega
  obtain ⟨e0, e1, e2⟩ := idxO ⟨2 * ((i 1).val / 512) + 1, hlt⟩
  have e1' : win0_2.index ⟨2 * ((i 1).val / 512) + 1, hlt⟩ (1 : Fin 3) = (i 1).val / 512 := by
    rw [e1]; show (2 * ((i 1).val / 512) + 1) / 2 = (i 1).val / 512; omega
  refine ⟨⟨2 * ((i 1).val / 512) + 1, hlt⟩, (flush0_2 _).mpr (by show (2 * ((i 1).val / 512) + 1) % 2 = 1; omega), ?_⟩
  rw [mem_blkO]
  intro a
  match a with
  | ⟨0, _⟩ =>
    show win0_2.index ⟨2 * ((i 1).val / 512) + 1, hlt⟩ (0 : Fin 3) * 4 ≤ (i 0).val ∧ (i 0).val < win0_2.index ⟨2 * ((i 1).val / 512) + 1, hlt⟩ (0 : Fin 3) * 4 + 4
    rw [e0]; omega
  | ⟨1, _⟩ =>
    show win0_2.index ⟨2 * ((i 1).val / 512) + 1, hlt⟩ (1 : Fin 3) * 512 ≤ (i 1).val ∧ (i 1).val < win0_2.index ⟨2 * ((i 1).val / 512) + 1, hlt⟩ (1 : Fin 3) * 512 + 512
    rw [e1']; omega
  | ⟨2, _⟩ =>
    show win0_2.index ⟨2 * ((i 1).val / 512) + 1, hlt⟩ (2 : Fin 3) * 256 ≤ (i 2).val ∧ (i 2).val < win0_2.index ⟨2 * ((i 1).val / 512) + 1, hlt⟩ (2 : Fin 3) * 256 + 256
    rw [e2]; omega

/-- The result array after the run: the projection of the argument arrays as the region finds them. -/
theorem final (c : Dev nD) : (dats m 0 c).arrAt 2 cfg0.N = Cert.Spec.proj (arrX m c) (arrP m c) :=
  (dats m 0 c).arrAt_eq_of_cover 2 (Cert.Spec.proj (arrX m c) (arrP m c)) (flushed_eq m c) covered

/-- The run, read: the result array at the projection of the argument arrays, the arguments unchanged. -/
theorem run : θ_run defs (onTc (τ := τ) (main (F := Ideal))) ⟨m, fun _ => 0, ρ⟩ fun r => ∀ c : Dev nD,
      r.2.mem ((c.tc : Thread nD τ).loc main_v0)
        = Cert.Spec.proj (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).1 1).trans (((dats m 0 c).arrAt_in 1 rfl _).trans (A_eq m c 1)),
      ((h c).1 0).trans (((dats m 0 c).arrAt_in 0 rfl _).trans (A_eq m c 0))⟩)
    (run_main m ρ)

end Cert.KernelIdeal.Val

end
-- ==== Proof.RefProj.lean ====
/-
  The reference result is the projection. The reference cuts `x` into its four batch slabs, flattens each slab to a
  4096 by 256 matrix, multiplies it on the left by `p` (a sum over the 4096 columns of `p`), and lays the four products
  end to end along the batch axis. Read at `[b, n, d]` this is `Σ_k p[n, k] · x[b, k, d]`: the concatenation picks
  product `b`, the flattening sends row `k`, column `d` of the matrix back to `[0, k, d]` of the slab because
  `(256 k + d) / 256 = k` and `(256 k + d) % 256 = d` for `d < 256`, and the slab's `[0, k, d]` is `x[b, k, d]`.
-/
import proofs.«143561_g21036749816194_cont_8to1_1761_21_alg».proof.Proof.Gen.ReferenceIdeal.Read
import proofs.«143561_g21036749816194_cont_8to1_1761_21_alg».proof.Proof.Spec
import Idealize.ShloMosaic.Lib.ValueIdx
import Idealize.ShloMosaic.Lib.Pipeline.Value
import Idealize.ShloMosaic.PureOps.Ideal.Laws

noncomputable section

namespace Cert.RefProj

open Cert.ReferenceIdeal Cert.ReferenceIdeal.Read Idealize.ShloMosaic Idealize.ShloMosaic.ValueIdx

variable {F : FTy → Type} [FloatOps F]

/-- Row `k`, column `d` of a 256-column matrix sits at flat position `256 k + d`, whose row is `k`. -/
theorem row_of_flat (k : Fin 4096) (d : Fin 256) : (k.val * 256 + d.val) / 256 % 4096 = k.val := by
  have hk := k.isLt
  have hd := d.isLt
  omega

/-- … and whose column is `d`. -/
theorem col_of_flat (k : Fin 4096) (d : Fin 256) : (k.val * 256 + d.val) % 256 = d.val := by
  have hd := d.isLt
  omega

/-- Slab 0 of the result: the concatenation read at `[0, n, d]` is its piece 0 at `[0, n, d]`. -/
theorem piece0 (x : (⟨S4x4096x256, .f32⟩ : BufTy).Contents (Elt F)) (p : (⟨S4096x4096, .f32⟩ : BufTy).Contents (Elt F))
    (n : Fin 4096) (d : Fin 256) :
    val_main_v16 (F := F) x p (ix3 (⟨0, by decide⟩ : Fin 4) n d)
      = val_main_v12 (F := F) x p (ix3 (⟨0, by decide⟩ : Fin 1) n d) := by
  unfold val_main_v16
  refine concatenate_apply_piece (0 : Fin S4x4096x256.rank) _ _ (ix3 (⟨0, by decide⟩ : Fin 4) n d) 0 ?hk
    S1x4096x256 _ ?hxk ?hr 0 ?hpre (ix3 (⟨0, by decide⟩ : Fin 1) n d) (fun c hc => ?hi) ?ha
  case hk => show (0 : Nat) < 4; decide
  case hxk => rfl
  case hr => rfl
  case hpre => rfl
  case ha => rfl
  match c with
  | ⟨0, _⟩ => exact (hc rfl).elim
  | ⟨1, _⟩ => rfl
  | ⟨2, _⟩ => rfl

/-- Slab 0: `out[0, n, d] = Σ_k p[n, k] · x[0, k, d]`. -/
theorem slab0 (x : (⟨S4x4096x256, .f32⟩ : BufTy).Contents (Elt Ideal)) (p : (⟨S4096x4096, .f32⟩ : BufTy).Contents (Elt Ideal))
    (n : Fin 4096) (d : Fin 256) :
    val_main_v16 (F := Ideal) x p (ix3 (⟨0, by decide⟩ : Fin 4) n d)
      = ∑ k : Fin 4096, p (ix2 n k) * x (ix3 (⟨0, by decide⟩ : Fin 4) k d) := by
  rw [piece0, val_main_v12_apply, val_main_v2_apply]
  refine Finset.sum_congr rfl fun k _ => ?_
  rw [val_main_v1_apply, val_main_v0_apply]
  have hl : lidx_main_v2 (idx_main_v12 (ix3 (⟨0, by decide⟩ : Fin 1) n d)) k = ix2 n k := by
    funext a
    match a with
    | ⟨0, _⟩ => rfl
    | ⟨1, _⟩ => rfl
  have hr : idx_main_v0 (idx_main_v1 (ridx_main_v2 (idx_main_v12 (ix3 (⟨0, by decide⟩ : Fin 1) n d)) k))
      = ix3 (⟨0, by decide⟩ : Fin 4) k d := by
    funext a
    match a with
    | ⟨0, _⟩ => exact Fin.ext rfl
    | ⟨1, _⟩ => exact Fin.ext (row_of_flat k d)
    | ⟨2, _⟩ => exact Fin.ext (col_of_flat k d)
  rw [hl, hr]

/-- Slab 1 of the result: the concatenation read at `[1, n, d]` is its piece 1 at `[0, n, d]`. -/
theorem piece1 (x : (⟨S4x4096x256, .f32⟩ : BufTy).Contents (Elt F)) (p : (⟨S4096x4096, .f32⟩ : BufTy).Contents (Elt F))
    (n : Fin 4096) (d : Fin 256) :
    val_main_v16 (F := F) x p (ix3 (⟨1, by decide⟩ : Fin 4) n d)
      = val_main_v13 (F := F) x p (ix3 (⟨0, by decide⟩ : Fin 1) n d) := by
  unfold val_main_v16
  refine concatenate_apply_piece (0 : Fin S4x4096x256.rank) _ _ (ix3 (⟨1, by decide⟩ : Fin 4) n d) 1 ?hk
    S1x4096x256 _ ?hxk ?hr 1 ?hpre (ix3 (⟨0, by decide⟩ : Fin 1) n d) (fun c hc => ?hi) ?ha
  case hk => show (1 : Nat) < 4; decide
  case hxk => rfl
  case hr => rfl
  case hpre => rfl
  case ha => rfl
  match c with
  | ⟨0, _⟩ => exact (hc rfl).elim
  | ⟨1, _⟩ => rfl
  | ⟨2, _⟩ => rfl

/-- Slab 1: `out[1, n, d] = Σ_k p[n, k] · x[1, k, d]`. -/
theorem slab1 (x : (⟨S4x4096x256, .f32⟩ : BufTy).Contents (Elt Ideal)) (p : (⟨S4096x4096, .f32⟩ : BufTy).Contents (Elt Ideal))
    (n : Fin 4096) (d : Fin 256) :
    val_main_v16 (F := Ideal) x p (ix3 (⟨1, by decide⟩ : Fin 4) n d)
      = ∑ k : Fin 4096, p (ix2 n k) * x (ix3 (⟨1, by decide⟩ : Fin 4) k d) := by
  rw [piece1, val_main_v13_apply, val_main_v5_apply]
  refine Finset.sum_congr rfl fun k _ => ?_
  rw [val_main_v4_apply, val_main_v3_apply]
  have hl : lidx_main_v5 (idx_main_v13 (ix3 (⟨0, by decide⟩ : Fin 1) n d)) k = ix2 n k := by
    funext a
    match a with
    | ⟨0, _⟩ => rfl
    | ⟨1, _⟩ => rfl
  have hr : idx_main_v3 (idx_main_v4 (ridx_main_v5 (idx_main_v13 (ix3 (⟨0, by decide⟩ : Fin 1) n d)) k))
      = ix3 (⟨1, by decide⟩ : Fin 4) k d := by
    funext a
    match a with
    | ⟨0, _⟩ => exact Fin.ext rfl
    | ⟨1, _⟩ => exact Fin.ext (row_of_flat k d)
    | ⟨2, _⟩ => exact Fin.ext (col_of_flat k d)
  rw [hl, hr]

/-- Slab 2 of the result: the concatenation read at `[2, n, d]` is its piece 2 at `[0, n, d]`. -/
theorem piece2 (x : (⟨S4x4096x256, .f32⟩ : BufTy).Contents (Elt F)) (p : (⟨S4096x4096, .f32⟩ : BufTy).Contents (Elt F))
    (n : Fin 4096) (d : Fin 256) :
    val_main_v16 (F := F) x p (ix3 (⟨2, by decide⟩ : Fin 4) n d)
      = val_main_v14 (F := F) x p (ix3 (⟨0, by decide⟩ : Fin 1) n d) := by
  unfold val_main_v16
  refine concatenate_apply_piece (0 : Fin S4x4096x256.rank) _ _ (ix3 (⟨2, by decide⟩ : Fin 4) n d) 2 ?hk
    S1x4096x256 _ ?hxk ?hr 2 ?hpre (ix3 (⟨0, by decide⟩ : Fin 1) n d) (fun c hc => ?hi) ?ha
  case hk => show (2 : Nat) < 4; decide
  case hxk => rfl
  case hr => rfl
  case hpre => rfl
  case ha => rfl
  match c with
  | ⟨0, _⟩ => exact (hc rfl).elim
  | ⟨1, _⟩ => rfl
  | ⟨2, _⟩ => rfl

/-- Slab 2: `out[2, n, d] = Σ_k p[n, k] · x[2, k, d]`. -/
theorem slab2 (x : (⟨S4x4096x256, .f32⟩ : BufTy).Contents (Elt Ideal)) (p : (⟨S4096x4096, .f32⟩ : BufTy).Contents (Elt Ideal))
    (n : Fin 4096) (d : Fin 256) :
    val_main_v16 (F := Ideal) x p (ix3 (⟨2, by decide⟩ : Fin 4) n d)
      = ∑ k : Fin 4096, p (ix2 n k) * x (ix3 (⟨2, by decide⟩ : Fin 4) k d) := by
  rw [piece2, val_main_v14_apply, val_main_v8_apply]
  refine Finset.sum_congr rfl fun k _ => ?_
  rw [val_main_v7_apply, val_main_v6_apply]
  have hl : lidx_main_v8 (idx_main_v14 (ix3 (⟨0, by decide⟩ : Fin 1) n d)) k = ix2 n k := by
    funext a
    match a with
    | ⟨0, _⟩ => rfl
    | ⟨1, _⟩ => rfl
  have hr : idx_main_v6 (idx_main_v7 (ridx_main_v8 (idx_main_v14 (ix3 (⟨0, by decide⟩ : Fin 1) n d)) k))
      = ix3 (⟨2, by decide⟩ : Fin 4) k d := by
    funext a
    match a with
    | ⟨0, _⟩ => exact Fin.ext rfl
    | ⟨1, _⟩ => exact Fin.ext (row_of_flat k d)
    | ⟨2, _⟩ => exact Fin.ext (col_of_flat k d)
  rw [hl, hr]

/-- Slab 3 of the result: the concatenation read at `[3, n, d]` is its piece 3 at `[0, n, d]`. -/
theorem piece3 (x : (⟨S4x4096x256, .f32⟩ : BufTy).Contents (Elt F)) (p : (⟨S4096x4096, .f32⟩ : BufTy).Contents (Elt F))
    (n : Fin 4096) (d : Fin 256) :
    val_main_v16 (F := F) x p (ix3 (⟨3, by decide⟩ : Fin 4) n d)
      = val_main_v15 (F := F) x p (ix3 (⟨0, by decide⟩ : Fin 1) n d) := by
  unfold val_main_v16
  refine concatenate_apply_piece (0 : Fin S4x4096x256.rank) _ _ (ix3 (⟨3, by decide⟩ : Fin 4) n d) 3 ?hk
    S1x4096x256 _ ?hxk ?hr 3 ?hpre (ix3 (⟨0, by decide⟩ : Fin 1) n d) (fun c hc => ?hi) ?ha
  case hk => show (3 : Nat) < 4; decide
  case hxk => rfl
  case hr => rfl
  case hpre => rfl
  case ha => rfl
  match c with
  | ⟨0, _⟩ => exact (hc rfl).elim
  | ⟨1, _⟩ => rfl
  | ⟨2, _⟩ => rfl

/-- Slab 3: `out[3, n, d] = Σ_k p[n, k] · x[3, k, d]`. -/
theorem slab3 (x : (⟨S4x4096x256, .f32⟩ : BufTy).Contents (Elt Ideal)) (p : (⟨S4096x4096, .f32⟩ : BufTy).Contents (Elt Ideal))
    (n : Fin 4096) (d : Fin 256) :
    val_main_v16 (F := Ideal) x p (ix3 (⟨3, by decide⟩ : Fin 4) n d)
      = ∑ k : Fin 4096, p (ix2 n k) * x (ix3 (⟨3, by decide⟩ : Fin 4) k d) := by
  rw [piece3, val_main_v15_apply, val_main_v11_apply]
  refine Finset.sum_congr rfl fun k _ => ?_
  rw [val_main_v10_apply, val_main_v9_apply]
  have hl : lidx_main_v11 (idx_main_v15 (ix3 (⟨0, by decide⟩ : Fin 1) n d)) k = ix2 n k := by
    funext a
    match a with
    | ⟨0, _⟩ => rfl
    | ⟨1, _⟩ => rfl
  have hr : idx_main_v9 (idx_main_v10 (ridx_main_v11 (idx_main_v15 (ix3 (⟨0, by decide⟩ : Fin 1) n d)) k))
      = ix3 (⟨3, by decide⟩ : Fin 4) k d := by
    funext a
    match a with
    | ⟨0, _⟩ => exact Fin.ext rfl
    | ⟨1, _⟩ => exact Fin.ext (row_of_flat k d)
    | ⟨2, _⟩ => exact Fin.ext (col_of_flat k d)
  rw [hl, hr]

/-- The reference's result is the projection: `out[b, n, d] = Σ_k p[n, k] · x[b, k, d]` for every `b`, `n`, `d`. -/
theorem ref_is_proj (x : (⟨Cert.ReferenceIdeal.S4x4096x256, .f32⟩ : BufTy).Contents (Elt Ideal))
    (p : (⟨Cert.ReferenceIdeal.S4096x4096, .f32⟩ : BufTy).Contents (Elt Ideal)) :
    Cert.ReferenceIdeal.Read.val_main_v16 (F := Ideal) x p = Cert.Spec.proj x p := by
  funext i
  obtain ⟨b, n, d, rfl⟩ : ∃ (b : Fin 4) (n : Fin 4096) (d : Fin 256), i = ix3 b n d :=
    ⟨i 0, i 1, i 2, ValueIdx.eq_ix3 i⟩
  rw [Cert.Spec.proj_apply]
  match b with
  | ⟨0, _⟩ => exact slab0 x p n d
  | ⟨1, _⟩ => exact slab1 x p n d
  | ⟨2, _⟩ => exact slab2 x p n d
  | ⟨3, _⟩ => exact slab3 x p n d

end Cert.RefProj

end
-- ==== Proof.lean ====
/-
  The certificate of the batched projection `out[b] = p · x[b]` (four slabs `x[b]` of 4096 by 256, one 4096 by 4096
  matrix `p`), kernel against reference, over the extended reals.

  The kernel walks a grid of 8 row blocks by 2 column halves. At an even point it stores, for each slab, the product of
  the 512 by 2048 block of `p` with the first half of the slab's rows (kept in a scratch since point 0); at the odd point
  after it, it adds the product of the next block of `p` with the second half of the slab's rows, and the block is
  written back. So row `n` of slab `b` ends as `Σ_{k<2048} p[n,k] x[b,k,·] + Σ_{k<2048} p[n,2048+k] x[b,2048+k,·]`,
  which is the reference's `Σ_{k<4096} p[n,k] x[b,k,·]`: a finite sum over an additive commutative monoid splits at
  any position, and the extended reals are one (no finiteness is needed, so the precondition is never opened).

  The three frames: the two kernels' from the body obligation proved once at any float instance, the reference's from
  its run. The ideal pass rewrote nothing, so the kernel's idealization is its own text read over the extended reals.
-/
import proofs.«143561_g21036749816194_cont_8to1_1761_21_alg».proof.Defs
import proofs.«143561_g21036749816194_cont_8to1_1761_21_alg».proof.Proof.Gen.Kernel
import proofs.«143561_g21036749816194_cont_8to1_1761_21_alg».proof.Proof.Gen.KernelIdeal
import proofs.«143561_g21036749816194_cont_8to1_1761_21_alg».proof.Proof.Gen.ReferenceIdeal
import proofs.«143561_g21036749816194_cont_8to1_1761_21_alg».proof.Proof.Gen.Pre_finite_inputs
import proofs.«143561_g21036749816194_cont_8to1_1761_21_alg».proof.Proof.Gen.ReferenceIdeal.Run
import proofs.«143561_g21036749816194_cont_8to1_1761_21_alg».proof.Proof.Gen.ReferenceIdeal.Read
import proofs.«143561_g21036749816194_cont_8to1_1761_21_alg».proof.Proof.Kernel.Body
import proofs.«143561_g21036749816194_cont_8to1_1761_21_alg».proof.Proof.KernelIdeal.PointValues
import proofs.«143561_g21036749816194_cont_8to1_1761_21_alg».proof.Proof.RefProj
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result array ends at the projection of its argument arrays, and the reference's
    result is the projection of arguments that agree with them. -/
theorem algebraic : Cert.algebraic_KernelIdeal_ReferenceIdeal := by
  intro m ρ m' ρ' _ hagree
  refine ⟨fun c => Cert.Spec.proj (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  show _ = Cert.Spec.proj (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
  rw [← (hagree c).1, ← (hagree c).2]
  exact (Cert.ReferenceIdeal.Read.val_main_v16_eq _ _).trans (Cert.RefProj.ref_is_proj _ _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
